-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.sign_bit.Statement Cert.KernelIdeal.S8192x126 .f32
  ∧ IdealRules.sign_bit.Statement Cert.KernelIdeal.S126x126 .f32
  ∧ IdealRules.sign_bit.Statement Cert.KernelIdeal.S8192x126 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1x1x126 : Shape := ⟨4, ![262144, 1, 1, 126]⟩
abbrev S126x1x1x126 : Shape := ⟨4, ![126, 1, 1, 126]⟩
abbrev S126 : Shape := ⟨1, ![126]⟩
abbrev S2x126 : Shape := ⟨2, ![2, 126]⟩
abbrev S2 : Shape := ⟨1, ![2]⟩
abbrev S_ : Shape := ⟨0, ![]⟩

class Facts : Prop where
  bcast_S_S262144x1x1x126 : S_.BroadcastsInDim S262144x1x1x126 (![] : Fin 0 → Fin S262144x1x1x126.rank)
  reducesTo_S262144x1x1x126_S_d0_1_2_3 : S262144x1x1x126.ReducesTo [0, 1, 2, 3] S_
  h_S_ : 0 < S_.numel
  bcast_S_S126x1x1x126 : S_.BroadcastsInDim S126x1x1x126 (![] : Fin 0 → Fin S126x1x1x126.rank)
  reducesTo_S126x1x1x126_S_d0_1_2_3 : S126x1x1x126.ReducesTo [0, 1, 2, 3] S_
  bcast_S_S126 : S_.BroadcastsInDim S126 (![] : Fin 0 → Fin S126.rank)
  reducesTo_S126_S_d0 : S126.ReducesTo [0] S_
  bcast_S_S2x126 : S_.BroadcastsInDim S2x126 (![] : Fin 0 → Fin S2x126.rank)
  reducesTo_S2x126_S_d0_1 : S2x126.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_arg8 : FVec F S2 .f32) (main_arg9 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg4 : FVec F S126 .f32) (main_arg5 : FVec F S126 .f32) (main_arg6 : FVec F S2x126 .f32) (main_arg7 : FVec F S2 .f32) (main_arg8 : FVec F S2 .f32) (main_arg9 : FVec F S2 .f32) (main_v13 : IVec S_ 1) (main_v16 : IVec S126 1) : IVec S_ 1 :=
  let main_c_5 : IVec S_ 1 := constantI S_ 1 1#1
  let main_v17 : IVec S_ 1 := (fun x v => Host.reduce IntOp.andi x v reducesTo_S126_S_d0 h_S_) main_v16 main_c_5
  let main_v18 : IVec S_ 1 := andi main_v13 main_v17
  let main_v19 : FVec F S126 .f32 := Host.absf main_arg4
  let main_cst_6 : FVec F S_ .f32 := constant S_ .f32 0x7F800000#32
  let main_v20 : FVec F S126 .f32 := broadcastInDim S126 ![] bcast_S_S126 main_cst_6
  let main_v21 : IVec S126 1 := cmpf .olt main_v19 main_v20
  let main_c_7 : IVec S_ 1 := constantI S_ 1 1#1
  let main_v22 : IVec S_ 1 := (fun x v => Host.reduce IntOp.andi x v reducesTo_S126_S_d0 h_S_) main_v21 main_c_7
  let main_v23 : IVec S_ 1 := andi main_v18 main_v22
  let main_v24 : FVec F S126 .f32 := Host.absf main_arg5
  let main_cst_8 : FVec F S_ .f32 := constant S_ .f32 0x7F800000#32
  let main_v25 : FVec F S126 .f32 := broadcastInDim S126 ![] bcast_S_S126 main_cst_8
  let main_v26 : IVec S126 1 := cmpf .olt main_v24 main_v25
  let main_c_9 : IVec S_ 1 := constantI S_ 1 1#1
  let main_v27 : IVec S_ 1 := (fun x v => Host.reduce IntOp.andi x v reducesTo_S126_S_d0 h_S_) main_v26 main_c_9
  let main_v28 : IVec S_ 1 := andi main_v23 main_v27
  let main_v29 : FVec F S2x126 .f32 := Host.absf main_arg6
  let main_cst_10 : FVec F S_ .f32 := constant S_ .f32 0x7F800000#32
  let main_v30 : FVec F S2x126 .f32 := broadcastInDim S2x126 ![] bcast_S_S2x126 main_cst_10
  let main_v31 : IVec S2x126 1 := cmpf .olt main_v29 main_v30
  let main_c_11 : IVec S_ 1 := constantI S_ 1 1#1
  let main_v32 : IVec S_ 1 := (fun x v => Host.reduce IntOp.andi x v reducesTo_S2x126_S_d0_1 h_S_) main_v31 main_c_11
  let main_v33 : IVec S_ 1 := andi main_v28 main_v32
  fn_part2 (F := F) main_arg7 main_arg8 main_arg9 main_v33

def fn {F : FTy → Type} [FloatOps F] (main_arg0 : FVec F S262144x1x1x126 .f32) (main_arg1 : FVec F S126x1x1x126 .f32) (main_arg2 : FVec F S126 .f32) (main_arg3 : FVec F S126 .f32) (main_arg4 : FVec F S126 .f32) (main_arg5 : FVec F S126 .f32) (main_arg6 : FVec F S2x126 .f32) (main_arg7 : FVec F S2 .f32) (main_arg8 : FVec F S2 .f32) (main_arg9 : FVec F S2 .f32) : IVec S_ 1 :=
  let main_v0 : FVec F S262144x1x1x126 .f32 := Host.absf main_arg0
  let main_cst : FVec F S_ .f32 := constant S_ .f32 0x7F800000#32
  let main_v1 : FVec F S262144x1x1x126 .f32 := broadcastInDim S262144x1x1x126 ![] bcast_S_S262144x1x1x126 main_cst
  let main_v2 : IVec S262144x1x1x126 1 := cmpf .olt main_v0 main_v1
  let main_c : IVec S_ 1 := constantI S_ 1 1#1
  let main_v3 : IVec S_ 1 := (fun x v => Host.reduce IntOp.andi x v reducesTo_S262144x1x1x126_S_d0_1_2_3 h_S_) main_v2 main_c
  let main_v4 : FVec F S126x1x1x126 .f32 := Host.absf main_arg1
  let main_cst_0 : FVec F S_ .f32 := constant S_ .f32 0x7F800000#32
  let main_v5 : FVec F S126x1x1x126 .f32 := broadcastInDim S126x1x1x126 ![] bcast_S_S126x1x1x126 main_cst_0
  let main_v6 : IVec S126x1x1x126 1 := cmpf .olt main_v4 main_v5
  let main_c_1 : IVec S_ 1 := constantI S_ 1 1#1
  let main_v7 : IVec S_ 1 := (fun x v => Host.reduce IntOp.andi x v reducesTo_S126x1x1x126_S_d0_1_2_3 h_S_) main_v6 main_c_1
  let main_v8 : IVec S_ 1 := andi main_v3 main_v7
  let main_v9 : FVec F S126 .f32 := Host.absf main_arg2
  let main_cst_2 : FVec F S_ .f32 := constant S_ .f32 0x7F800000#32
  let main_v10 : FVec F S126 .f32 := broadcastInDim S126 ![] bcast_S_S126 main_cst_2
  let main_v11 : IVec S126 1 := cmpf .olt main_v9 main_v10
  let main_c_3 : IVec S_ 1 := constantI S_ 1 1#1
  let main_v12 : IVec S_ 1 := (fun x v => Host.reduce IntOp.andi x v reducesTo_S126_S_d0 h_S_) main_v11 main_c_3
  let main_v13 : IVec S_ 1 := andi main_v8 main_v12
  let main_v14 : FVec F S126 .f32 := Host.absf main_arg3
  let main_cst_4 : FVec F S_ .f32 := constant S_ .f32 0x7F800000#32
  let main_v15 : FVec F S126 .f32 := broadcastInDim S126 ![] bcast_S_S126 main_cst_4
  let main_v16 : IVec S126 1 := cmpf .olt main_v14 main_v15
  fn_part1 (F := F) main_arg4 main_arg5 main_arg6 main_arg7 main_arg8 main_arg9 main_v13 main_v16
-- ==== Kernel.lean ====
abbrev S262144x1x1x126 : Shape := ⟨4, ![262144, 1, 1, 126]⟩
abbrev S126x1x1x126 : Shape := ⟨4, ![126, 1, 1, 126]⟩
abbrev S126 : Shape := ⟨1, ![126]⟩
abbrev S2x126 : Shape := ⟨2, ![2, 126]⟩
abbrev S2 : Shape := ⟨1, ![2]⟩
abbrev S262144x126 : Shape := ⟨2, ![262144, 126]⟩
abbrev S126x126 : Shape := ⟨2, ![126, 126]⟩
abbrev S1x126 : Shape := ⟨2, ![1, 126]⟩
abbrev S_ : Shape := ⟨0, ![]⟩
abbrev S1 : Shape := ⟨1, ![1]⟩
abbrev S5 : Shape := ⟨1, ![5]⟩
abbrev S1x5 : Shape := ⟨2, ![1, 5]⟩
abbrev S4096x128 : Shape := ⟨2, ![4096, 128]⟩
abbrev S8192x126 : Shape := ⟨2, ![8192, 126]⟩
abbrev S128x128 : Shape := ⟨2, ![128, 128]⟩
abbrev S8192 : Shape := ⟨1, ![8192]⟩
abbrev S8192x1 : Shape := ⟨2, ![8192, 1]⟩
abbrev S1x1 : Shape := ⟨2, ![1, 1]⟩
abbrev S8192x2 : Shape := ⟨2, ![8192, 2]⟩
abbrev S262144x2 : Shape := ⟨2, ![262144, 2]⟩

abbrev nBuf : Space → Nat
  | .hbm => 50
  | .vmem => 11
  | .smem => 0
  | _ => 0

abbrev bufTy : (tb : Table) → Fin (tcTables nBuf tb) → BufTy
  | .hbm, ⟨0, _⟩ => ⟨S262144x1x1x126, .f32⟩
  | .hbm, ⟨1, _⟩ => ⟨S126x1x1x126, .f32⟩
  | .hbm, ⟨2, _⟩ => ⟨S126, .f32⟩
  | .hbm, ⟨3, _⟩ => ⟨S126, .f32⟩
  | .hbm, ⟨4, _⟩ => ⟨S126, .f32⟩
  | .hbm, ⟨5, _⟩ => ⟨S126, .f32⟩
  | .hbm, ⟨6, _⟩ => ⟨S2x126, .f32⟩
  | .hbm, ⟨7, _⟩ => ⟨S2, .f32⟩
  | .hbm, ⟨8, _⟩ => ⟨S2, .f32⟩
  | .hbm, ⟨9, _⟩ => ⟨S2, .f32⟩
  | .hbm, ⟨10, _⟩ => ⟨S262144x126, .f32⟩
  | .hbm, ⟨11, _⟩ => ⟨S126x126, .f32⟩
  | .hbm, ⟨12, _⟩ => ⟨S1x126, .f32⟩
  | .hbm, ⟨13, _⟩ => ⟨S1x126, .f32⟩
  | .hbm, ⟨14, _⟩ => ⟨S1x126, .f32⟩
  | .hbm, ⟨15, _⟩ => ⟨S1x126, .f32⟩
  | .hbm, ⟨16, _⟩ => ⟨S2x126, .f32⟩
  | .hbm, ⟨17, _⟩ => ⟨S1x126, .f32⟩
  | .hbm, ⟨18, _⟩ => ⟨S126, .f32⟩
  | .hbm, ⟨19, _⟩ => ⟨S1x126, .f32⟩
  | .hbm, ⟨20, _⟩ => ⟨S126, .f32⟩
  | .hbm, ⟨21, _⟩ => ⟨S126, .f32⟩
  | .hbm, ⟨22, _⟩ => ⟨S_, .f32⟩
  | .hbm, ⟨23, _⟩ => ⟨S126, .f32⟩
  | .hbm, ⟨24, _⟩ => ⟨S126, .f32⟩
  | .hbm, ⟨25, _⟩ => ⟨S1x126, .f32⟩
  | .hbm, ⟨26, _⟩ => ⟨S1, .f32⟩
  | .hbm, ⟨27, _⟩ => ⟨S_, .f32⟩
  | .hbm, ⟨28, _⟩ => ⟨S1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S1, .f32⟩
  | .hbm, ⟨45, _⟩ => ⟨S1, .f32⟩
  | .hbm, ⟨46, _⟩ => ⟨S5, .f32⟩
  | .hbm, ⟨47, _⟩ => ⟨S1x5, .f32⟩
  | .hbm, ⟨48, _⟩ => ⟨S4096x128, .f32⟩
  | .hbm, ⟨49, _⟩ => ⟨S262144x2, .f32⟩
  | .local _ .vmem, ⟨0, _⟩ => ⟨S8192x126, .f32⟩
  | .local _ .vmem, ⟨1, _⟩ => ⟨S8192x126, .f32⟩
  | .local _ .vmem, ⟨2, _⟩ => ⟨S126x126, .f32⟩
  | .local _ .vmem, ⟨3, _⟩ => ⟨S1x126, .f32⟩
  | .local _ .vmem, ⟨4, _⟩ => ⟨S1x126, .f32⟩
  | .local _ .vmem, ⟨5, _⟩ => ⟨S1x126, .f32⟩
  | .local _ .vmem, ⟨6, _⟩ => ⟨S1x126, .f32⟩
  | .local _ .vmem, ⟨7, _⟩ => ⟨S1x126, .f32⟩
  | .local _ .vmem, ⟨8, _⟩ => ⟨S1x5, .f32⟩
  | .local _ .vmem, ⟨9, _⟩ => ⟨S128x128, .f32⟩
  | .local _ .vmem, ⟨10, _⟩ => ⟨S128x128, .f32⟩
  | _, _ => ⟨S262144x1x1x126, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x126 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S126x126 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x126 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x126 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x126 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x126 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x126 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S262144x1x1x126_S262144x126 : S262144x1x1x126.ShapeCasts S262144x126
  shapeCasts_S126x1x1x126_S126x126 : S126x1x1x126.ShapeCasts S126x126
  shapeCasts_S126_S1x126 : S126.ShapeCasts S1x126
  slices_S2x126_S1x126_0_0 : S2x126.Slices ![0, 0] S1x126
  shapeCasts_S1x126_S126 : S1x126.ShapeCasts S126
  slices_S2x126_S1x126_1_0 : S2x126.Slices ![1, 0] S1x126
  bcast_S_S126 : S_.BroadcastsInDim S126 (![] : Fin 0 → Fin S126.rank)
  slices_S2_S1_0 : S2.Slices ![0] S1
  shapeCasts_S1_S_ : S1.ShapeCasts S_
  slices_S2_S1_1 : S2.Slices ![1] S1
  bcast_S_S1 : S_.BroadcastsInDim S1 (![] : Fin 0 → Fin S1.rank)
  concatenates_S1_S1_S1_S1_S1_S5_d0 : Shape.Concatenates [S1, S1, S1, S1, S1] S5 0
  shapeCasts_S5_S1x5 : S5.ShapeCasts S1x5
  inb_S8192x126_S8192x126_0_0 : ∀ a, (![0, 0] : Fin 2 → Nat) a + S8192x126.size a ≤ S8192x126.size a
  h_S8192x126 : 0 < S8192x126.numel
  shapeCasts_S8192x126_S8192x126 : S8192x126.ShapeCasts S8192x126
  inb_S126x126_S126x126_0_0 : ∀ a, (![0, 0] : Fin 2 → Nat) a + S126x126.size a ≤ S126x126.size a
  h_S126x126 : 0 < S126x126.numel
  shapeCasts_S126x126_S126x126 : S126x126.ShapeCasts S126x126
  bitsLt_bf16_f32 : FTy.bits .bf16 < FTy.bits .f32
  inb_S1x126_S1x126_0_0 : ∀ a, (![0, 0] : Fin 2 → Nat) a + S1x126.size a ≤ S1x126.size a
  h_S1x126 : 0 < S1x126.numel
  shapeCasts_S1x126_S1x126 : S1x126.ShapeCasts S1x126
  reduces_S8192x126_S8192 : S8192x126.Reduces [1] S8192
  shapeCasts_S8192_S8192x1 : S8192.ShapeCasts S8192x1
  broadcasts_S8192x1_S8192x126 : S8192x1.Broadcasts S8192x126
  broadcasts_S1x126_S8192x126 : S1x126.Broadcasts S8192x126
  inb_S1x5_S1x5_0_0 : ∀ a, (![0, 0] : Fin 2 → Nat) a + S1x5.size a ≤ S1x5.size a
  h_S1x5 : 0 < S1x5.numel
  shapeCasts_S1x5_S1x5 : S1x5.ShapeCasts S1x5
  slices_S1x5_o0_0_S1x1 : S1x5.Slices ![0, 0] S1x1
  inpos_S1x1_p0_0 : ∀ a, (![0, 0] : Fin 2 → Nat) a < S1x1.size a
  slices_S1x5_o0_1_S1x1 : S1x5.Slices ![0, 1] S1x1
  slices_S1x5_o0_2_S1x1 : S1x5.Slices ![0, 2] S1x1
  slices_S1x5_o0_3_S1x1 : S1x5.Slices ![0, 3] S1x1
  slices_S1x5_o0_4_S1x1 : S1x5.Slices ![0, 4] S1x1
  concatenates_S8192x1_S8192x1_S8192x2_d1 : Shape.Concatenates [S8192x1, S8192x1] S8192x2 1
  shapeCasts_S8192x2_S128x128 : S8192x2.ShapeCasts S128x128
  inb_S128x128_S128x128_0_0 : ∀ a, (![0, 0] : Fin 2 → Nat) a + S128x128.size a ≤ S128x128.size a
  h_S128x128 : 0 < S128x128.numel
  shapeCasts_S4096x128_S262144x2 : S4096x128.ShapeCasts S262144x2
  dot_S8192x126_S126x126_S8192x126_1_1_0_0_n_n_wf : DotDims.WF S8192x126 S126x126 S8192x126 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x126.size a ≤ S262144x126.size a
  hwx0_0 : ∀ i : grid0.Coords, EltTy.bits .f32 = 32 ∨ (Rect.block (s := S262144x126) S8192x126.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S126x126.size a ≤ S126x126.size a
  hwx0_1 : ∀ i : grid0.Coords, EltTy.bits .f32 = 32 ∨ (Rect.block (s := S126x126) S126x126.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x126.size a ≤ S1x126.size a
  hwx0_2 : ∀ i : grid0.Coords, EltTy.bits .f32 = 32 ∨ (Rect.block (s := S1x126) S1x126.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x126.size a ≤ S1x126.size a
  hwx0_3 : ∀ i : grid0.Coords, EltTy.bits .f32 = 32 ∨ (Rect.block (s := S1x126) S1x126.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x126.size a ≤ S1x126.size a
  hwx0_4 : ∀ i : grid0.Coords, EltTy.bits .f32 = 32 ∨ (Rect.block (s := S1x126) S1x126.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x126.size a ≤ S1x126.size a
  hwx0_5 : ∀ i : grid0.Coords, EltTy.bits .f32 = 32 ∨ (Rect.block (s := S1x126) S1x126.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x126.size a ≤ S1x126.size a
  hwx0_6 : ∀ i : grid0.Coords, EltTy.bits .f32 = 32 ∨ (Rect.block (s := S1x126) S1x126.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x5.size a ≤ S1x5.size a
  hwx0_7 : ∀ i : grid0.Coords, EltTy.bits .f32 = 32 ∨ (Rect.block (s := S1x5) S1x5.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S4096x128.size a
  hwx0_8 : ∀ i : grid0.Coords, EltTy.bits .f32 = 32 ∨ (Rect.block (s := S4096x128) S128x128.size (cc0_transform_8 i) (hinb0_8 i)).WholeWords (EltTy.packing .f32)

variable [Facts₀]

def dot_S8192x126_S126x126_S8192x126_1_1_0_0_n_n : DotDims S8192x126 S126x126 S8192x126 where
  lhsContracting := [1]
  rhsContracting := [1]
  lhsNonContracting := [0]
  rhsNonContracting := [0]
  lhsBatch := []
  rhsBatch := []
  wf := dot_S8192x126_S126x126_S8192x126_1_1_0_0_n_n_wf

abbrev win0_0 : Pipeline.Window sig grid0 :=
  Pipeline.Window.ofSpec (Memref.whole main_v0) S8192x126.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S126x126.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x126.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x126.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x126.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x126.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x126.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x1x1x126 : Shape := ⟨4, ![262144, 1, 1, 126]⟩
abbrev S126x1x1x126 : Shape := ⟨4, ![126, 1, 1, 126]⟩
abbrev S126 : Shape := ⟨1, ![126]⟩
abbrev S2x126 : Shape := ⟨2, ![2, 126]⟩
abbrev S2 : Shape := ⟨1, ![2]⟩
abbrev S262144x126 : Shape := ⟨2, ![262144, 126]⟩
abbrev S126x126 : Shape := ⟨2, ![126, 126]⟩
abbrev S_ : Shape := ⟨0, ![]⟩
abbrev S262144 : Shape := ⟨1, ![262144]⟩
abbrev S262144x1 : Shape := ⟨2, ![262144, 1]⟩
abbrev S1x126 : Shape := ⟨2, ![1, 126]⟩
abbrev S262144x2 : Shape := ⟨2, ![262144, 2]⟩
abbrev S1x2 : Shape := ⟨2, ![1, 2]⟩

abbrev nBuf : Space → Nat
  | .hbm => 132
  | .vmem => 0
  | .smem => 0
  | _ => 0

abbrev hbmTy0_0 (i : Nat) : BufTy := match i % 128 with
  | 0 => ⟨S262144x1x1x126, .f32⟩
  | 1 => ⟨S126x1x1x126, .f32⟩
  | 2 => ⟨S126, .f32⟩
  | 3 => ⟨S126, .f32⟩
  | 4 => ⟨S126, .f32⟩
  | 5 => ⟨S126, .f32⟩
  | 6 => ⟨S2x126, .f32⟩
  | 7 => ⟨S2, .f32⟩
  | 8 => ⟨S2, .f32⟩
  | 9 => ⟨S2, .f32⟩
  | 10 => ⟨S262144x126, .f32⟩
  | 11 => ⟨S262144x126, .f32⟩
  | 12 => ⟨S262144x126, .f32⟩
  | 13 => ⟨S262144x126, .f32⟩
  | 14 => ⟨S126x126, .f32⟩
  | 15 => ⟨S126x126, .f32⟩
  | 16 => ⟨S126x126, .f32⟩
  | 17 => ⟨S126x126, .f32⟩
  | 18 => ⟨S262144x126, .f32⟩
  | 19 => ⟨S_, .f32⟩
  | 20 => ⟨S262144, .f32⟩
  | 21 => ⟨S262144x1, .f32⟩
  | 22 => ⟨S_, .f32⟩
  | 23 => ⟨S262144x1, .f32⟩
  | 24 => ⟨S262144x1, .f32⟩
  | 25 => ⟨S262144x126, .f32⟩
  | 26 => ⟨S262144x126, .f32⟩
  | 27 => ⟨S262144x126, .f32⟩
  | 28 => ⟨S_, .f32⟩
  | 29 => ⟨S262144, .f32⟩
  | 30 => ⟨S262144x1, .f32⟩
  | 31 => ⟨S_, .f32⟩
  | 32 => ⟨S262144x1, .f32⟩
  | 33 => ⟨S262144x1, .f32⟩
  | 34 => ⟨S262144x126, .f32⟩
  | 35 => ⟨S262144x126, .f32⟩
  | 36 => ⟨S_, .f32⟩
  | 37 => ⟨S262144x1, .f32⟩
  | 38 => ⟨S262144x1, .f32⟩
  | 39 => ⟨S262144x1, .f32⟩
  | 40 => ⟨S262144x126, .f32⟩
  | 41 => ⟨S262144x126, .f32⟩
  | 42 => ⟨S1x126, .f32⟩
  | 43 => ⟨S262144x126, .f32⟩
  | 44 => ⟨S262144x126, .f32⟩
  | 45 => ⟨S1x126, .f32⟩
  | 46 => ⟨S262144x126, .f32⟩
  | 47 => ⟨S262144x126, .f32⟩
  | 48 => ⟨S_, .f32⟩
  | 49 => ⟨S_, .f32⟩
  | 50 => ⟨S_, .f32⟩
  | 51 => ⟨S262144x126, .f32⟩
  | 52 => ⟨S262144x126, .f32⟩
  | 53 => ⟨S_, .f32⟩
  | 54 => ⟨S262144x126, .f32⟩
  | 55 => ⟨S262144x126, .f32⟩
  | 56 => ⟨S_, .f32⟩
  | 57 => ⟨S262144, .f32⟩
  | 58 => ⟨S262144x1, .f32⟩
  | 59 => ⟨S_, .f32⟩
  | 60 => ⟨S262144x1, .f32⟩
  | 61 => ⟨S262144x1, .f32⟩
  | 62 => ⟨S262144x126, .f32⟩
  | 63 => ⟨S262144x126, .f32⟩
  | 64 => ⟨S262144x126, .f32⟩
  | 65 => ⟨S_, .f32⟩
  | 66 => ⟨S262144, .f32⟩
  | 67 => ⟨S262144x1, .f32⟩
  | 68 => ⟨S_, .f32⟩
  | 69 => ⟨S262144x1, .f32⟩
  | 70 => ⟨S262144x1, .f32⟩
  | 71 => ⟨S262144x126, .f32⟩
  | 72 => ⟨S262144x126, .f32⟩
  | 73 => ⟨S_, .f32⟩
  | 74 => ⟨S262144x1, .f32⟩
  | 75 => ⟨S262144x1, .f32⟩
  | 76 => ⟨S262144x1, .f32⟩
  | 77 => ⟨S262144x126, .f32⟩
  | 78 => ⟨S262144x126, .f32⟩
  | 79 => ⟨S1x126, .f32⟩
  | 80 => ⟨S262144x126, .f32⟩
  | 81 => ⟨S262144x126, .f32⟩
  | 82 => ⟨S1x126, .f32⟩
  | 83 => ⟨S262144x126, .f32⟩
  | 84 => ⟨S262144x126, .f32⟩
  | 85 => ⟨S_, .f32⟩
  | 86 => ⟨S_, .f32⟩
  | 87 => ⟨S_, .f32⟩
  | 88 => ⟨S262144x126, .f32⟩
  | 89 => ⟨S262144x126, .f32⟩
  | 90 => ⟨S_, .f32⟩
  | 91 => ⟨S262144x126, .f32⟩
  | 92 => ⟨S262144x126, .f32⟩
  | 93 => ⟨S262144x126, .f32⟩
  | 94 => ⟨S262144x126, .f32⟩
  | 95 => ⟨S262144x126, .f32⟩
  | 96 => ⟨S2x126, .f32⟩
  | 97 => ⟨S2x126, .f32⟩
  | 98 => ⟨S2x126, .f32⟩
  | 99 => ⟨S262144x2, .f32⟩
  | 100 => ⟨S1x2, .f32⟩
  | 101 => ⟨S262144x2, .f32⟩
  | 102 => ⟨S262144x2, .f32⟩
  | 103 => ⟨S_, .f32⟩
  | 104 => ⟨S262144, .f32⟩
  | 105 => ⟨S262144x1, .f32⟩
  | 106 => ⟨S_, .f32⟩
  | 107 => ⟨S262144x1, .f32⟩
  | 108 => ⟨S262144x1, .f32⟩
  | 109 => ⟨S262144x2, .f32⟩
  | 110 => ⟨S262144x2, .f32⟩
  | 111 => ⟨S262144x2, .f32⟩
  | 112 => ⟨S_, .f32⟩
  | 113 => ⟨S262144, .f32⟩
  | 114 => ⟨S262144x1, .f32⟩
  | 115 => ⟨S_, .f32⟩
  | 116 => ⟨S262144x1, .f32⟩
  | 117 => ⟨S262144x1, .f32⟩
  | 118 => ⟨S262144x2, .f32⟩
  | 119 => ⟨S262144x2, .f32⟩
  | 120 => ⟨S_, .f32⟩
  | 121 => ⟨S262144x1, .f32⟩
  | 122 => ⟨S262144x1, .f32⟩
  | 123 => ⟨S262144x1, .f32⟩
  | 124 => ⟨S262144x2, .f32⟩
  | 125 => ⟨S262144x2, .f32⟩
  | 126 => ⟨S1x2, .f32⟩
  | 127 => ⟨S262144x2, .f32⟩
  | _ => ⟨S262144x1x1x126, .f32⟩

abbrev hbmTy0_1 (i : Nat) : BufTy := match i % 128 with
  | 0 => ⟨S262144x2, .f32⟩
  | 1 => ⟨S1x2, .f32⟩
  | 2 => ⟨S262144x2, .f32⟩
  | 3 => ⟨S262144x2, .f32⟩
  | _ => ⟨S262144x1x1x126, .f32⟩

abbrev hbmTy (i : Nat) : BufTy := match i / 128 with
  | 0 => hbmTy0_0 i
  | 1 => hbmTy0_1 i
  | _ => ⟨S262144x1x1x126, .f32⟩

abbrev bufTy : (tb : Table) → Fin (tcTables nBuf tb) → BufTy
  | .hbm, ⟨i, _⟩ => hbmTy i
  | _, _ => ⟨S262144x1x1x126, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_cst_12 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_15 : Ref sig .tc := ⟨.hbm, 112, rfl⟩
abbrev main_v76 : Ref sig .tc := ⟨.hbm, 113, rfl⟩
abbrev main_v77 : Ref sig .tc := ⟨.hbm, 114, rfl⟩
abbrev main_cst_16 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_17 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩

abbrev nD : Nat := 1
abbrev τ : Topo := Topo.v7x

variable {F : FTy → Type} [FloatOps F]

class Facts₀ : Prop where
  shapeCasts_S262144x1x1x126_S262144x126 : S262144x1x1x126.ShapeCasts S262144x126
  shapeCasts_S126x1x1x126_S126x126 : S126x1x1x126.ShapeCasts S126x126
  reducesTo_S262144x126_S262144_d1 : S262144x126.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x126_0_1 : S262144x1.BroadcastsInDim S262144x126 (![0, 1] : Fin 2 → Fin S262144x126.rank)
  bcast_S126_S1x126_1 : S126.BroadcastsInDim S1x126 (![1] : Fin 1 → Fin S1x126.rank)
  bcast_S1x126_S262144x126_0_1 : S1x126.BroadcastsInDim S262144x126 (![0, 1] : Fin 2 → Fin S262144x126.rank)
  bcast_S_S262144x126 : S_.BroadcastsInDim S262144x126 (![] : Fin 0 → Fin S262144x126.rank)
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  reducesTo_S262144x2_S262144_d1 : S262144x2.ReducesTo [1] S262144
  bcast_S262144x1_S262144x2_0_1 : S262144x1.BroadcastsInDim S262144x2 (![0, 1] : Fin 2 → Fin S262144x2.rank)
  dot_S262144x126_S126x126_S262144x126_1_1_0_0_n_n_wf : DotDims.WF S262144x126 S126x126 S262144x126 [1] [1] [0] [0] [] []
  dot_S262144x126_S2x126_S262144x2_1_1_0_0_n_n_wf : DotDims.WF S262144x126 S2x126 S262144x2 [1] [1] [0] [0] [] []

variable [Facts₀]

def dot_S262144x126_S126x126_S262144x126_1_1_0_0_n_n : DotDims S262144x126 S126x126 S262144x126 where
  lhsContracting := [1]
  rhsContracting := [1]
  lhsNonContracting := [0]
  rhsNonContracting := [0]
  lhsBatch := []
  rhsBatch := []
  wf := dot_S262144x126_S126x126_S262144x126_1_1_0_0_n_n_wf
def dot_S262144x126_S2x126_S262144x2_1_1_0_0_n_n : DotDims S262144x126 S2x126 S262144x2 where
  lhsContracting := [1]
  rhsContracting := [1]
  lhsNonContracting := [0]
  rhsNonContracting := [0]
  lhsBatch := []
  rhsBatch := []
  wf := dot_S262144x126_S2x126_S262144x2_1_1_0_0_n_n_wf

class Facts : Prop extends Facts₀ where

variable [Facts]
-- ==== Proof.FrameBits.lean ====
import proofs.«117246_j71339406787195_2_alg».proof.Proof.Gen.Kernel.Launch
import proofs.«117246_j71339406787195_2_alg».proof.Proof.Gen.Kernel.Skeleton
import proofs.«117246_j71339406787195_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The frame of the program: @main is thirty-eight host operations, one pipelined region over a grid of
    thirty-two points, and one host operation. The region stages eight input arrays and one output array;
    the body reads each input buffer whole and writes the output buffer whole, once. Hence every array the
    region reads ends as it was found, and the ten argument arrays, which no operation writes, end as launched. -/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The TensorCore buffers of core `c` when the region is entered: the launch memory after the host operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The block of window `w` at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of each staging buffer, as a rectangle: the body's loads and its store go through these. -/
abbrev r0 : Rect S8192x126 := Rect.unit (s := S8192x126) ![0, 0] S8192x126.size inb_S8192x126_S8192x126_0_0
abbrev r1 : Rect S126x126 := Rect.unit (s := S126x126) ![0, 0] S126x126.size inb_S126x126_S126x126_0_0
abbrev r2 : Rect S1x126 := Rect.unit (s := S1x126) ![0, 0] S1x126.size inb_S1x126_S1x126_0_0
abbrev r7 : Rect S1x5 := Rect.unit (s := S1x5) ![0, 0] S1x5.size inb_S1x5_S1x5_0_0
abbrev r8 : Rect S128x128 := Rect.unit (s := S128x128) ![0, 0] S128x128.size inb_S128x128_S128x128_0_0

/-- What the body leaves in the output buffer, from the eight input blocks: its one store, which covers the buffer. -/
def out0_8 (x0 : Vec F S8192x126 .f32) (x1 : Vec F S126x126 .f32) (x2 x3 x4 x5 x6 : Vec F S1x126 .f32) (x7 : Vec F S1x5 .f32) :
    Vec F S128x128 .f32 :=
  View.canon [⟨r8, k0_pay8
    (k0_pay6 (k0_pay1 (View.ld x0 r0) (View.ld x1 r1)) (k0_pay2 (View.ld x2 r2)) (k0_pay3 (View.ld x3 r2)) (k0_pay4 (View.ld x0 r0) (View.ld x1 r1)) (k0_pay5 (View.ld x0 r0) (View.ld x1 r1)) (Scalar.ofBits .f32 0x42FC0000#32) (View.ld x4 r2) (View.ld x5 r2))
    (k0_pay7 (F := F)) (View.ld x6 r2) (View.ld x7 r7)⟩]

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operation after it; run from the
    launch memory it reaches the region at `V` and continues with the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result buffer, which is none of the region's nine arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes `main_arg0` (each writes its own result buffer). -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg1` (each writes its own result buffer). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg2` (each writes its own result buffer). -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg3` (each writes its own result buffer). -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg4` (each writes its own result buffer). -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg5` (each writes its own result buffer). -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg6` (each writes its own result buffer). -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg7` (each writes its own result buffer). -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg8` (each writes its own result buffer). -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg9` (each writes its own result buffer). -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the operation after it, and `main_arg0` is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the operation after it, and `main_arg1` is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the operation after it, and `main_arg2` is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the operation after it, and `main_arg3` is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the operation after it, and `main_arg4` is no array of the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does the operation after it, and `main_arg5` is no array of the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does the operation after it, and `main_arg6` is no array of the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nor does the operation after it, and `main_arg7` is no array of the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Nor does the operation after it, and `main_arg8` is no array of the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Nor does the operation after it, and `main_arg9` is no array of the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The input windows' buffers

An input window's current staging buffer holds its block at every point, whether or not the pipeline fetched it
there: where it was not fetched the block index has not moved (windows 1 to 7 have a constant index map and are
fetched at the first point only), and the body left the buffer as it found it. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

/-- The one store covers the output buffer. -/
theorem cover0_8 (p0 : Vec F S128x128 .f32) (y : S128x128.Idx) :
    ∃ pc ∈ ([⟨r8, p0⟩] : List (View.Piece (Elt F) S128x128 .f32)), y ∈ pc.1.set :=
  View.cover_of_tiled [⟨r8, p0⟩] S128x128.size (by rfl) y

set_option maxHeartbeats 1000000 in
/-- The body on whole staging buffers, the inputs at contents `xW` and the output at anything, returns the inputs
    as they were and the output at `out0_8` of them: it loads each input whole, and stores the output whole. -/
theorem sound_kernel (c : Dev nD) (E : Set ℕ) (i : grid0.Coords) (arg1 : Memref sig .tc .vmem S8192x126 .f32) (harg1 : arg1.IsWhole) (arg2 : Memref sig .tc .vmem S126x126 .f32) (harg2 : arg2.IsWhole) (arg3 : Memref sig .tc .vmem S1x126 .f32) (harg3 : arg3.IsWhole) (arg4 : Memref sig .tc .vmem S1x126 .f32) (harg4 : arg4.IsWhole) (arg5 : Memref sig .tc .vmem S1x126 .f32) (harg5 : arg5.IsWhole) (arg6 : Memref sig .tc .vmem S1x126 .f32) (harg6 : arg6.IsWhole) (arg7 : Memref sig .tc .vmem S1x126 .f32) (harg7 : arg7.IsWhole) (arg8 : Memref sig .tc .vmem S1x5 .f32) (harg8 : arg8.IsWhole) (arg9 : Memref sig .tc .vmem S128x128 .f32) (harg9 : arg9.IsWhole)
    (x0 : Vec F S8192x126 .f32) (x1 : Vec F S126x126 .f32) (x2 x3 x4 x5 x6 : Vec F S1x126 .f32) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-- The proof data of the pipeline on core `c`: the arrays as the region finds them; after the body at point `t`
    each input buffer still at its block and the output buffer at `out0_8` of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) (iblk m c 7 t) := by
  dsimp only [dats]

/-! ## The body obligation -/

/-- What the body is called with at point `t`: the invariant, what is owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The body at any point: the input buffers hold their blocks, so the body's triple applies; the invariant and
    what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; at the end each array of
    the region holds what the proof data says and every other unscoped buffer what the last host operation leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The ten argument arrays are no array of the region and no host operation writes them: they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩) (run_main m ρ)

end Cert.Kernel.Frame

end
-- ==== Proof.FrameIdeal.lean ====
import proofs.«117246_j71339406787195_2_alg».proof.Proof.Gen.KernelIdeal.Launch
import proofs.«117246_j71339406787195_2_alg».proof.Proof.Gen.KernelIdeal.Skeleton
import proofs.«117246_j71339406787195_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The frame of the program: @main is thirty-eight host operations, one pipelined region over a grid of
    thirty-two points, and one host operation. The region stages eight input arrays and one output array;
    the body reads each input buffer whole and writes the output buffer whole, once. Hence every array the
    region reads ends as it was found, and the ten argument arrays, which no operation writes, end as launched. -/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers of core `c` when the region is entered: the launch memory after the host operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The block of window `w` at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of each staging buffer, as a rectangle: the body's loads and its store go through these. -/
abbrev r0 : Rect S8192x126 := Rect.unit (s := S8192x126) ![0, 0] S8192x126.size inb_S8192x126_S8192x126_0_0
abbrev r1 : Rect S126x126 := Rect.unit (s := S126x126) ![0, 0] S126x126.size inb_S126x126_S126x126_0_0
abbrev r2 : Rect S1x126 := Rect.unit (s := S1x126) ![0, 0] S1x126.size inb_S1x126_S1x126_0_0
abbrev r7 : Rect S1x5 := Rect.unit (s := S1x5) ![0, 0] S1x5.size inb_S1x5_S1x5_0_0
abbrev r8 : Rect S128x128 := Rect.unit (s := S128x128) ![0, 0] S128x128.size inb_S128x128_S128x128_0_0

/-- What the body leaves in the output buffer, from the eight input blocks: its one store, which covers the buffer. -/
def out0_8 (x0 : Vec F S8192x126 .f32) (x1 : Vec F S126x126 .f32) (x2 x3 x4 x5 x6 : Vec F S1x126 .f32) (x7 : Vec F S1x5 .f32) :
    Vec F S128x128 .f32 :=
  View.canon [⟨r8, k0_pay1
    (k0_pay9 (k0_pay3 (View.ld x2 r2)) (k0_pay4 (View.ld x3 r2)) (k0_pay6 (View.ld x0 r0) (View.ld x1 r1)) (k0_pay7 (View.ld x0 r0) (View.ld x1 r1)) (k0_pay8 (F := F)) (View.ld x4 r2) (View.ld x5 r2))
    (k0_pay10 (k0_pay3 (View.ld x2 r2)) (k0_pay4 (View.ld x3 r2)) (k0_pay6 (View.ld x0 r0) (View.ld x1 r1)) (k0_pay7 (View.ld x0 r0) (View.ld x1 r1)) (k0_pay8 (F := F)) (View.ld x4 r2) (View.ld x5 r2))
    (View.ld x6 r2) (View.ld x7 r7)⟩]

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operation after it; run from the
    launch memory it reaches the region at `V` and continues with the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result buffer, which is none of the region's nine arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes `main_arg0` (each writes its own result buffer). -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg1` (each writes its own result buffer). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg2` (each writes its own result buffer). -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg3` (each writes its own result buffer). -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg4` (each writes its own result buffer). -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg5` (each writes its own result buffer). -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg6` (each writes its own result buffer). -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg7` (each writes its own result buffer). -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg8` (each writes its own result buffer). -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg9` (each writes its own result buffer). -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the operation after it, and `main_arg0` is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the operation after it, and `main_arg1` is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the operation after it, and `main_arg2` is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the operation after it, and `main_arg3` is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the operation after it, and `main_arg4` is no array of the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does the operation after it, and `main_arg5` is no array of the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does the operation after it, and `main_arg6` is no array of the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nor does the operation after it, and `main_arg7` is no array of the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Nor does the operation after it, and `main_arg8` is no array of the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Nor does the operation after it, and `main_arg9` is no array of the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The input windows' buffers

An input window's current staging buffer holds its block at every point, whether or not the pipeline fetched it
there: where it was not fetched the block index has not moved (windows 1 to 7 have a constant index map and are
fetched at the first point only), and the body left the buffer as it found it. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

/-- The one store covers the output buffer. -/
theorem cover0_8 (p0 : Vec F S128x128 .f32) (y : S128x128.Idx) :
    ∃ pc ∈ ([⟨r8, p0⟩] : List (View.Piece (Elt F) S128x128 .f32)), y ∈ pc.1.set :=
  View.cover_of_tiled [⟨r8, p0⟩] S128x128.size (by rfl) y

set_option maxHeartbeats 1000000 in
/-- The body on whole staging buffers, the inputs at contents `xW` and the output at anything, returns the inputs
    as they were and the output at `out0_8` of them: it loads each input whole, and stores the output whole. -/
theorem sound_kernel (c : Dev nD) (E : Set ℕ) (i : grid0.Coords) (arg1 : Memref sig .tc .vmem S8192x126 .f32) (harg1 : arg1.IsWhole) (arg2 : Memref sig .tc .vmem S126x126 .f32) (harg2 : arg2.IsWhole) (arg3 : Memref sig .tc .vmem S1x126 .f32) (harg3 : arg3.IsWhole) (arg4 : Memref sig .tc .vmem S1x126 .f32) (harg4 : arg4.IsWhole) (arg5 : Memref sig .tc .vmem S1x126 .f32) (harg5 : arg5.IsWhole) (arg6 : Memref sig .tc .vmem S1x126 .f32) (harg6 : arg6.IsWhole) (arg7 : Memref sig .tc .vmem S1x126 .f32) (harg7 : arg7.IsWhole) (arg8 : Memref sig .tc .vmem S1x5 .f32) (harg8 : arg8.IsWhole) (arg9 : Memref sig .tc .vmem S128x128 .f32) (harg9 : arg9.IsWhole)
    (x0 : Vec F S8192x126 .f32) (x1 : Vec F S126x126 .f32) (x2 x3 x4 x5 x6 : Vec F S1x126 .f32) (x7 : Vec F S1x5 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-- The proof data of the pipeline on core `c`: the arrays as the region finds them; after the body at point `t`
    each input buffer still at its block and the output buffer at `out0_8` of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) (iblk m c 7 t) := by
  dsimp only [dats]

/-! ## The body obligation -/

/-- What the body is called with at point `t`: the invariant, what is owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The body at any point: the input buffers hold their blocks, so the body's triple applies; the invariant and
    what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; at the end each array of
    the region holds what the proof data says and every other unscoped buffer what the last host operation leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The ten argument arrays are no array of the region and no host operation writes them: they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩) (run_main m ρ)

end Cert.KernelIdeal.Frame

end
-- ==== Proof.KernelArray.lean ====
import proofs.«117246_j71339406787195_2_alg».proof.Proof.FrameIdeal
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-! The result array, and the arrays the region reads, index by index.

    The region's output array has 4096 rows of 128; grid point `t` writes rows `128 t … 128 t + 127`, the block the
    body leaves from the input blocks at `t`. The host operation after the region reads that array row-major as
    262144 rows of 2. Input block `t` of the first array is its rows `8192 t … 8192 t + 8191`; every other input
    block is its whole array. The arrays themselves are reshapes, slices, differences and halvings of the arguments. -/

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## From the blocks to the output array -/

/-- The grid point whose block holds row `j 0` of the output array. -/
def ptOf (j : S4096x128.Idx) : Fin cfg0.N :=
  ⟨(j 0).val / 128, by have h : (j 0).val < 4096 := (j 0).isLt; rw [show cfg0.N = 32 from N_0]; omega⟩

/-- The place of `j` inside that block. -/
def inBlk (j : S4096x128.Idx) : S128x128.Idx :=
  ix2 (⟨(j 0).val % 128, Nat.mod_lt _ (by decide)⟩ : Fin 128) (⟨(j 1).val, (j 1).isLt⟩ : Fin 128)

/-- Entry `i` of the result, 262144 rows of 2, in the output array, 4096 rows of 128: the same row-major position. -/
def flatOf (i : S262144x2.Idx) : S4096x128.Idx :=
  ix2 (⟨((i 0).val * 2 + (i 1).val) / 128, by
      have h0 : (i 0).val < 262144 := (i 0).isLt; have h1 : (i 1).val < 2 := (i 1).isLt; omega⟩ : Fin 4096)
    (⟨((i 0).val * 2 + (i 1).val) % 128, Nat.mod_lt _ (by decide)⟩ : Fin 128)

/-- What the body leaves in the output buffer at point `t`. -/
def blkOut (c : Dev nD) (t : Fin cfg0.N) : Vec F S128x128 .f32 :=
  out0_8 (iblk m c 0 t) (iblk m c 1 t) (iblk m c 2 t) (iblk m c 3 t) (iblk m c 4 t) (iblk m c 5 t) (iblk m c 6 t) (iblk m c 7 t)

/-- The output window's block index at point `t` is `(t, 0)`: decided over the grid. -/
theorem idx_facts8 : ∀ t : Fin cfg0.N, win0_8.index t (0 : Fin 2) = t.val ∧ win0_8.index t (1 : Fin 2) = 0 :=
  (by decide +kernel : ∀ t : Fin grid0.N, _)

/-- What point `t` writes back is block `t` of the array whose entry `j` is the body's result at the point and
    place of `j`: an element `y` of block `t` sits at row `128 t + y 0`, column `y 1`. -/
theorem flushed8_eq (c : Dev nD) (t : Fin cfg0.N) :
    (dats m 0 c).flushed 8 t = ((cfg0.win 8).blk t).view.read (Elt F) (fun j : S4096x128.Idx => blkOut m c (ptOf j) (inBlk j)) := by
  show (cfg0.win 8).cut (grid0.coords t) ((dats m 0 c).after 8 t) = _
  rw [after0_8]
  obtain ⟨e0, e1⟩ := idx_facts8 t
  funext y
  have hy0 : (y 0).val < 128 := (y 0).isLt
  have hy1 : (y 1).val < 128 := (y 1).isLt
  have h0 : ((((cfg0.win 8).blk t).view.emb y) 0).val = t.val * 128 + (y 0).val := by
    show win0_8.index t (0 : Fin 2) * 128 + 1 * (y 0).val = _
    rw [e0]; omega
  have h1 : ((((cfg0.win 8).blk t).view.emb y) 1).val = (y 1).val := by
    show win0_8.index t (1 : Fin 2) * 128 + 1 * (y 1).val = _
    rw [e1]; omega
  have hp : ptOf (((cfg0.win 8).blk t).view.emb y) = t := Fin.ext (by
    show ((((cfg0.win 8).blk t).view.emb y) 0).val / 128 = t.val
    rw [h0]; omega)
  have hq : inBlk (((cfg0.win 8).blk t).view.emb y) = y := by
    funext a; apply Fin.ext
    match a with
    | ⟨0, _⟩ => show ((((cfg0.win 8).blk t).view.emb y) 0).val % 128 = (y 0).val; rw [h0]; omega
    | ⟨1, _⟩ => show ((((cfg0.win 8).blk t).view.emb y) 1).val = (y 1).val; exact h1
  show _ = blkOut m c (ptOf (((cfg0.win 8).blk t).view.emb y)) (inBlk (((cfg0.win 8).blk t).view.emb y))
  rw [hp, hq]
  rfl

/-- An index of the array is in point `t`'s block iff each coordinate is in the block's range on its axis. -/
theorem mem_blk8 (t : Fin cfg0.N) (i : S4096x128.Idx) :
    i ∈ ((cfg0.win 8).blk t).view.set ↔ ∀ a : Fin 2, win0_8.index t a * S128x128.size a ≤ (i a).val ∧ (i a).val < win0_8.index t a * S128x128.size a + S128x128.size a := by
  show i ∈ ((View.whole main_v36).slice (win0_8.rect t)).set ↔ _
  rw [View.set_slice_whole, Rect.mem_set_unit]
  exact Iff.rfl

/-- The thirty-two blocks cover the array, so after the run it holds, entry by entry, what the body left. -/
theorem final8 (c : Dev nD) : (dats m 0 c).arrAt 8 cfg0.N = fun j => blkOut m c (ptOf j) (inBlk j) :=
  (dats m 0 c).arrAt_eq_of_cover 8 (fun j : S4096x128.Idx => blkOut m c (ptOf j) (inBlk j)) (fun t _ => flushed8_eq m c t) fun i =>
    ⟨ptOf i, flush0_8 (ptOf i), by
      rw [mem_blk8]
      obtain ⟨e0, e1⟩ := idx_facts8 (ptOf i)
      have hp : (ptOf i).val = (i 0).val / 128 := rfl
      have hi1 : (i 1).val < 128 := (i 1).isLt
      intro a
      match a with
      | ⟨0, _⟩ => show win0_8.index (ptOf i) (0 : Fin 2) * 128 ≤ (i 0).val ∧ (i 0).val < win0_8.index (ptOf i) (0 : Fin 2) * 128 + 128
                  rw [e0, hp]; omega
      | ⟨1, _⟩ => show win0_8.index (ptOf i) (1 : Fin 2) * 128 ≤ (i 1).val ∧ (i 1).val < win0_8.index (ptOf i) (1 : Fin 2) * 128 + 128
                  rw [e1]; omega⟩

/-! ## The result: the host operation after the region -/

/-- The reshape after the region reads the output array at the same row-major position. -/
theorem tail_v37 (c : Dev nD) : Pipeline.afterTail₀ cfgs (dats m) 0 (V0 m) [hostOps1] c main_v37
    = (fun i => blkOut m c (ptOf (flatOf i)) (inBlk (flatOf i))) := by
  unfold Pipeline.afterTail₀
  show StableHlo.after hostOps1 _ (Proc.devRef .tc main_v37) = _
  after_results
  have hw : Pipeline.withArrays spec0 c (V0 m c) (fun w => (dats m 0 c).arrAt w cfg0.N) (Proc.devRef .tc main_v36)
      = (fun j : S4096x128.Idx => blkOut m c (ptOf j) (inBlk j)) :=
    (Pipeline.withArrays_arr spec0 launch0.win.arr_inj c (V0 m c) (fun w => (dats m 0 c).arrAt w cfg0.N) 8).trans (final8 m c)
  funext i
  show shapeCast S262144x2 (Pipeline.withArrays spec0 c (V0 m c) (fun w => (dats m 0 c).arrAt w cfg0.N) (Proc.devRef .tc main_v36))
    shapeCasts_S4096x128_S262144x2 i = _
  rw [hw]
  exact shapeCast_apply _ _ i (flatOf i) (by
    show (S4096x128.rowMajor (flatOf i)).val = (S262144x2.rowMajor (i : S262144x2.Idx)).val
    rw [Shape.rowMajor_val_two, Shape.rowMajor_val_two]
    show ((i 0).val * 2 + (i 1).val) / 128 * 128 + ((i 0).val * 2 + (i 1).val) % 128 = (i 0).val * 2 + (i 1).val
    omega)

/-- The run, read: the result at the body's blocks re-laid row-major, the ten argument arrays as launched. -/
theorem run_value : θ_run defs (onTc (τ := τ) (main (F := F))) ⟨m, fun _ => 0, ρ⟩ (fun r => ∀ c : Dev nD,
      r.2.mem ((c.tc : Thread nD τ).loc main_v37) = (fun i => blkOut m c (ptOf (flatOf i)) (inBlk (flatOf i)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).2 main_v37 (Pipeline.mem_restRefs_of main_v37 (by decide) (by decide))).trans (tail_v37 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩) (run_main m ρ)

/-! ## The input blocks, read off their arrays -/

theorem pt_lt (t : Fin cfg0.N) : t.val < 32 := Nat.lt_of_lt_of_eq t.isLt (show cfg0.N = 32 from N_0)

/-- The first window's block index at point `t` is `(t, 0)`; every other input window's is `(0, 0)`. -/
theorem idx_facts_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

section Blocks

variable (c : Dev nD) (t : Fin cfg0.N)

/-- Block `t` of the first array is its rows `8192 t … 8192 t + 8191`. -/
theorem iblk0_apply (r : Fin 8192) (k : Fin 126) :
    iblk m c 0 t (ix2 r k) = V m c main_v0 (ix2 (⟨t.val * 8192 + r.val, by have := pt_lt t; have := r.isLt; omega⟩ : Fin 262144) k) := by
  obtain ⟨⟨e0, e1⟩, -⟩ := idx_facts_in t
  unfold iblk
  rw [View.read_apply]
  show V m c main_v0 _ = V m c main_v0 _
  congr 1
  funext a; apply Fin.ext
  match a with
  | ⟨0, _⟩ => show win0_0.index t (0 : Fin 2) * 8192 + 1 * r.val = t.val * 8192 + r.val; rw [e0]; omega
  | ⟨1, _⟩ => show win0_0.index t (1 : Fin 2) * 126 + 1 * k.val = k.val; rw [e1]; omega

/-- The block of every other input window is its whole array, at every point. -/
theorem iblk1_apply (j k : Fin 126) : iblk m c 1 t (ix2 j k) = V m c main_v1 (ix2 j k) := by
  obtain ⟨-, ⟨e0, e1⟩, -⟩ := idx_facts_in t
  unfold iblk
  rw [View.read_apply]
  show V m c main_v1 _ = V m c main_v1 _
  congr 1
  funext a; apply Fin.ext
  match a with
  | ⟨0, _⟩ => show win0_1.index t (0 : Fin 2) * 126 + 1 * j.val = j.val; rw [e0]; omega
  | ⟨1, _⟩ => show win0_1.index t (1 : Fin 2) * 126 + 1 * k.val = k.val; rw [e1]; omega

theorem iblk2_apply (k : Fin 126) : iblk m c 2 t (ix2 (0 : Fin 1) k) = V m c main_v2 (ix2 (0 : Fin 1) k) := by
  obtain ⟨-, -, ⟨e0, e1⟩, -⟩ := idx_facts_in t
  unfold iblk
  rw [View.read_apply]
  show V m c main_v2 _ = V m c main_v2 _
  congr 1
  funext a; apply Fin.ext
  match a with
  | ⟨0, _⟩ => show win0_2.index t (0 : Fin 2) * 1 + 1 * (0 : Fin 1).val = (0 : Fin 1).val; rw [e0]; rfl
  | ⟨1, _⟩ => show win0_2.index t (1 : Fin 2) * 126 + 1 * k.val = k.val; rw [e1]; omega

theorem iblk3_apply (k : Fin 126) : iblk m c 3 t (ix2 (0 : Fin 1) k) = V m c main_v3 (ix2 (0 : Fin 1) k) := by
  obtain ⟨-, -, -, ⟨e0, e1⟩, -⟩ := idx_facts_in t
  unfold iblk
  rw [View.read_apply]
  show V m c main_v3 _ = V m c main_v3 _
  congr 1
  funext a; apply Fin.ext
  match a with
  | ⟨0, _⟩ => show win0_3.index t (0 : Fin 2) * 1 + 1 * (0 : Fin 1).val = (0 : Fin 1).val; rw [e0]; rfl
  | ⟨1, _⟩ => show win0_3.index t (1 : Fin 2) * 126 + 1 * k.val = k.val; rw [e1]; omega

theorem iblk4_apply (k : Fin 126) : iblk m c 4 t (ix2 (0 : Fin 1) k) = V m c main_v4 (ix2 (0 : Fin 1) k) := by
  obtain ⟨-, -, -, -, ⟨e0, e1⟩, -⟩ := idx_facts_in t
  unfold iblk
  rw [View.read_apply]
  show V m c main_v4 _ = V m c main_v4 _
  congr 1
  funext a; apply Fin.ext
  match a with
  | ⟨0, _⟩ => show win0_4.index t (0 : Fin 2) * 1 + 1 * (0 : Fin 1).val = (0 : Fin 1).val; rw [e0]; rfl
  | ⟨1, _⟩ => show win0_4.index t (1 : Fin 2) * 126 + 1 * k.val = k.val; rw [e1]; omega

theorem iblk5_apply (k : Fin 126) : iblk m c 5 t (ix2 (0 : Fin 1) k) = V m c main_v5 (ix2 (0 : Fin 1) k) := by
  obtain ⟨-, -, -, -, -, ⟨e0, e1⟩, -⟩ := idx_facts_in t
  unfold iblk
  rw [View.read_apply]
  show V m c main_v5 _ = V m c main_v5 _
  congr 1
  funext a; apply Fin.ext
  match a with
  | ⟨0, _⟩ => show win0_5.index t (0 : Fin 2) * 1 + 1 * (0 : Fin 1).val = (0 : Fin 1).val; rw [e0]; rfl
  | ⟨1, _⟩ => show win0_5.index t (1 : Fin 2) * 126 + 1 * k.val = k.val; rw [e1]; omega

theorem iblk6_apply (k : Fin 126) : iblk m c 6 t (ix2 (0 : Fin 1) k) = V m c main_v14 (ix2 (0 : Fin 1) k) := by
  obtain ⟨-, -, -, -, -, -, ⟨e0, e1⟩, -⟩ := idx_facts_in t
  unfold iblk
  rw [View.read_apply]
  show V m c main_v14 _ = V m c main_v14 _
  congr 1
  funext a; apply Fin.ext
  match a with
  | ⟨0, _⟩ => show win0_6.index t (0 : Fin 2) * 1 + 1 * (0 : Fin 1).val = (0 : Fin 1).val; rw [e0]; rfl
  | ⟨1, _⟩ => show win0_6.index t (1 : Fin 2) * 126 + 1 * k.val = k.val; rw [e1]; omega

theorem iblk7_apply (a : Fin 5) : iblk m c 7 t (ix2 (0 : Fin 1) a) = V m c main_v35 (ix2 (0 : Fin 1) a) := by
  obtain ⟨-, -, -, -, -, -, -, e0, e1⟩ := idx_facts_in t
  unfold iblk
  rw [View.read_apply]
  show V m c main_v35 _ = V m c main_v35 _
  congr 1
  funext b; apply Fin.ext
  match b with
  | ⟨0, _⟩ => show win0_7.index t (0 : Fin 2) * 1 + 1 * (0 : Fin 1).val = (0 : Fin 1).val; rw [e0]; rfl
  | ⟨1, _⟩ => show win0_7.index t (1 : Fin 2) * 5 + 1 * a.val = a.val; rw [e1]; omega

end Blocks

/-! ## The arrays the region reads, from the arguments

The first six are the arguments reshaped. The seventh is half the difference of the two rows of the sign of the
seventh argument. The eighth lists five scalars: half the difference of the two entries of the eighth argument, then
the entries of the ninth and of the tenth. -/

section Arrays

variable (c : Dev nD)

theorem V0_eq : (V m c main_v0 : S262144x126.Idx → Elt F .f32)
    = shapeCast S262144x126 (m ((c.tc : Thread nD τ).loc main_arg0) : S262144x1x1x126.Idx → Elt F .f32) shapeCasts_S262144x1x1x126_S262144x126 := by
  show StableHlo.after hostOps0 (fun b => m (c, b)) (Proc.devRef .tc main_v0) = _
  after_results
  rfl

theorem V1_eq : (V m c main_v1 : S126x126.Idx → Elt F .f32)
    = shapeCast S126x126 (m ((c.tc : Thread nD τ).loc main_arg1) : S126x1x1x126.Idx → Elt F .f32) shapeCasts_S126x1x1x126_S126x126 := by
  show StableHlo.after hostOps0 (fun b => m (c, b)) (Proc.devRef .tc main_v1) = _
  after_results
  rfl

theorem V2_eq : (V m c main_v2 : S1x126.Idx → Elt F .f32)
    = shapeCast S1x126 (m ((c.tc : Thread nD τ).loc main_arg2) : S126.Idx → Elt F .f32) shapeCasts_S126_S1x126 := by
  show StableHlo.after hostOps0 (fun b => m (c, b)) (Proc.devRef .tc main_v2) = _
  after_results
  rfl

theorem V3_eq : (V m c main_v3 : S1x126.Idx → Elt F .f32)
    = shapeCast S1x126 (m ((c.tc : Thread nD τ).loc main_arg3) : S126.Idx → Elt F .f32) shapeCasts_S126_S1x126 := by
  show StableHlo.after hostOps0 (fun b => m (c, b)) (Proc.devRef .tc main_v3) = _
  after_results
  rfl

theorem V4_eq : (V m c main_v4 : S1x126.Idx → Elt F .f32)
    = shapeCast S1x126 (m ((c.tc : Thread nD τ).loc main_arg4) : S126.Idx → Elt F .f32) shapeCasts_S126_S1x126 := by
  show StableHlo.after hostOps0 (fun b => m (c, b)) (Proc.devRef .tc main_v4) = _
  after_results
  rfl

theorem V5_eq : (V m c main_v5 : S1x126.Idx → Elt F .f32)
    = shapeCast S1x126 (m ((c.tc : Thread nD τ).loc main_arg5) : S126.Idx → Elt F .f32) shapeCasts_S126_S1x126 := by
  show StableHlo.after hostOps0 (fun b => m (c, b)) (Proc.devRef .tc main_v5) = _
  after_results
  rfl

theorem V_v0 (b : Fin 262144) (k : Fin 126) :
    V m c main_v0 (ix2 b k) = m ((c.tc : Thread nD τ).loc main_arg0) (ix4 b (0 : Fin 1) (0 : Fin 1) k) :=
  (congrFun (V0_eq m c) (ix2 b k)).trans (shapeCast_apply _ _ _ _ (by
    show (S262144x1x1x126.rowMajor (ix4 b (0 : Fin 1) (0 : Fin 1) k)).val = (S262144x126.rowMajor (ix2 b k)).val
    rw [Shape.rowMajor_val_four, Shape.rowMajor_val_two]
    show ((b.val * 1 + 0) * 1 + 0) * 126 + k.val = b.val * 126 + k.val
    omega))

theorem V_v1 (j k : Fin 126) :
    V m c main_v1 (ix2 j k) = m ((c.tc : Thread nD τ).loc main_arg1) (ix4 j (0 : Fin 1) (0 : Fin 1) k) :=
  (congrFun (V1_eq m c) (ix2 j k)).trans (shapeCast_apply _ _ _ _ (by
    show (S126x1x1x126.rowMajor (ix4 j (0 : Fin 1) (0 : Fin 1) k)).val = (S126x126.rowMajor (ix2 j k)).val
    rw [Shape.rowMajor_val_four, Shape.rowMajor_val_two]
    show ((j.val * 1 + 0) * 1 + 0) * 126 + k.val = j.val * 126 + k.val
    omega))

theorem V_v2 (k : Fin 126) : V m c main_v2 (ix2 (0 : Fin 1) k) = m ((c.tc : Thread nD τ).loc main_arg2) (ix1 k) :=
  (congrFun (V2_eq m c) (ix2 (0 : Fin 1) k)).trans (shapeCast_a_1a_apply _ _ _ _)

theorem V_v3 (k : Fin 126) : V m c main_v3 (ix2 (0 : Fin 1) k) = m ((c.tc : Thread nD τ).loc main_arg3) (ix1 k) :=
  (congrFun (V3_eq m c) (ix2 (0 : Fin 1) k)).trans (shapeCast_a_1a_apply _ _ _ _)

theorem V_v4 (k : Fin 126) : V m c main_v4 (ix2 (0 : Fin 1) k) = m ((c.tc : Thread nD τ).loc main_arg4) (ix1 k) :=
  (congrFun (V4_eq m c) (ix2 (0 : Fin 1) k)).trans (shapeCast_a_1a_apply _ _ _ _)

theorem V_v5 (k : Fin 126) : V m c main_v5 (ix2 (0 : Fin 1) k) = m ((c.tc : Thread nD τ).loc main_arg5) (ix1 k) :=
  (congrFun (V5_eq m c) (ix2 (0 : Fin 1) k)).trans (shapeCast_a_1a_apply _ _ _ _)

/-- The seventh array, as the host operations compute it. -/
theorem V14_eq : (V m c main_v14 : S1x126.Idx → Elt F .f32)
    = shapeCast S1x126 (mulf
        (subf (shapeCast S126 (extractStridedSlice S1x126 ![0, 0] (Host.sign (m ((c.tc : Thread nD τ).loc main_arg6) : Vec F S2x126 .f32)) slices_S2x126_S1x126_0_0) shapeCasts_S1x126_S126)
          (shapeCast S126 (extractStridedSlice S1x126 ![1, 0] (Host.sign (m ((c.tc : Thread nD τ).loc main_arg6) : Vec F S2x126 .f32)) slices_S2x126_S1x126_1_0) shapeCasts_S1x126_S126))
        (broadcastInDim S126 ![] bcast_S_S126 (constant (F := F) S_ .f32 0x3F000000#32))) shapeCasts_S126_S1x126 := by
  show StableHlo.after hostOps0 (fun b => m (c, b)) (Proc.devRef .tc main_v14) = _
  after_results
  rfl

/-- A scalar of a pair: its slice at offset `o`, reshaped to rank zero. -/
def scalarOf (A : S2.Idx → Elt F .f32) (o : Nat) (h : S2.Slices ![o] S1) : S_.Idx → Elt F .f32 :=
  shapeCast S_ (extractStridedSlice S1 ![o] A h) shapeCasts_S1_S_

theorem scalarOf_apply (A : S2.Idx → Elt F .f32) (o : Nat) (h : S2.Slices ![o] S1) (q : Fin 2) (hq : q.val = o) (j : S_.Idx) :
    scalarOf A o h j = A (ix1 q) := by
  unfold scalarOf
  refine (shapeCast_apply _ _ j (ix1 (0 : Fin 1)) ?_).trans ?_
  · rw [Shape.rowMajor_val_one]
    have h1 : S_.numel = 1 := by decide
    have h2 := (S_.rowMajor j).isLt
    show 0 = _
    omega
  · exact extractStridedSlice_apply _ _ _ _ _ (fun a => by match a with | ⟨0, _⟩ => show q.val = o + 0; omega)

/-- The eighth array, as the host operations compute it: five scalars laid side by side. -/
theorem V35_eq : (V m c main_v35 : S1x5.Idx → Elt F .f32)
    = shapeCast S1x5 (concatenate S5 0
        [⟨S1, broadcastInDim S1 ![] bcast_S_S1 (mulf (subf (scalarOf (m ((c.tc : Thread nD τ).loc main_arg7)) 0 slices_S2_S1_0) (scalarOf (m ((c.tc : Thread nD τ).loc main_arg7)) 1 slices_S2_S1_1)) (constant (F := F) S_ .f32 0x3F000000#32))⟩,
         ⟨S1, broadcastInDim S1 ![] bcast_S_S1 (scalarOf (m ((c.tc : Thread nD τ).loc main_arg8)) 0 slices_S2_S1_0)⟩,
         ⟨S1, broadcastInDim S1 ![] bcast_S_S1 (scalarOf (m ((c.tc : Thread nD τ).loc main_arg8)) 1 slices_S2_S1_1)⟩,
         ⟨S1, broadcastInDim S1 ![] bcast_S_S1 (scalarOf (m ((c.tc : Thread nD τ).loc main_arg9)) 0 slices_S2_S1_0)⟩,
         ⟨S1, broadcastInDim S1 ![] bcast_S_S1 (scalarOf (m ((c.tc : Thread nD τ).loc main_arg9)) 1 slices_S2_S1_1)⟩]
        concatenates_S1_S1_S1_S1_S1_S5_d0) shapeCasts_S5_S1x5 := by
  show StableHlo.after hostOps0 (fun b => m (c, b)) (Proc.devRef .tc main_v35) = _
  after_results
  rfl

end Arrays

/-! ## The same arrays at the ideal instance, entry by entry -/

theorem V_v14 (m : (ℓ : Loc nD τ sig) → Buf (Elt Ideal) ℓ) (c : Dev nD) (k : Fin 126) : V m c main_v14 (ix2 (0 : Fin 1) k)
    = (Ideal.sign (m ((c.tc : Thread nD τ).loc main_arg6) (ix2 (0 : Fin 2) k)) - Ideal.sign (m ((c.tc : Thread nD τ).loc main_arg6) (ix2 (1 : Fin 2) k))) * Ideal.ofBits .f32 0x3F000000#32 := by
  refine (congrFun (V14_eq (F := Ideal) m c) (ix2 (0 : Fin 1) k)).trans ?_
  refine (shapeCast_a_1a_apply _ _ _ _).trans ?_
  rw [mulf_apply, subf_apply, shapeCast_1a_a_apply, shapeCast_1a_a_apply,
    slice2_axis0_apply 0 _ _ (0 : Fin 1) k (0 : Fin 2) rfl, slice2_axis0_apply 1 _ _ (0 : Fin 1) k (1 : Fin 2) rfl]
  rfl

theorem V_v35_0 (m : (ℓ : Loc nD τ sig) → Buf (Elt Ideal) ℓ) (c : Dev nD) : V m c main_v35 (ix2 (0 : Fin 1) (0 : Fin 5))
    = (@HSub.hSub EReal EReal EReal _ (m ((c.tc : Thread nD τ).loc main_arg7) (ix1 (0 : Fin 2))) (m ((c.tc : Thread nD τ).loc main_arg7) (ix1 (1 : Fin 2)))) * Ideal.ofBits .f32 0x3F000000#32 := by
  refine (congrFun (V35_eq (F := Ideal) m c) (ix2 (0 : Fin 1) (0 : Fin 5))).trans ?_
  refine (shapeCast_a_1a_apply _ _ _ _).trans ?_
  refine (concatenate_apply_piece _ _ _ (ix1 (0 : Fin 5)) 0 (show _ < 5 by omega) S1 _ rfl rfl 0 rfl (ix1 (0 : Fin 1))
    (fun b hb => absurd (Fin.ext (by show b.val = 0; have hb1 : b.val < 1 := b.isLt; omega)) hb) rfl).trans ?_
  refine (broadcastInDim_apply _ _ _ (ix1 (0 : Fin 1)) ix0 (fun a => a.elim0)).trans ?_
  rw [mulf_apply, subf_apply, scalarOf_apply _ 0 _ (0 : Fin 2) rfl, scalarOf_apply _ 1 _ (1 : Fin 2) rfl]
  rfl

theorem V_v35_1 (m : (ℓ : Loc nD τ sig) → Buf (Elt Ideal) ℓ) (c : Dev nD) : V m c main_v35 (ix2 (0 : Fin 1) (1 : Fin 5)) = m ((c.tc : Thread nD τ).loc main_arg8) (ix1 (0 : Fin 2)) := by
  refine (congrFun (V35_eq (F := Ideal) m c) (ix2 (0 : Fin 1) (1 : Fin 5))).trans ?_
  refine (shapeCast_a_1a_apply _ _ _ _).trans ?_
  refine (concatenate_apply_piece _ _ _ (ix1 (1 : Fin 5)) 1 (show _ < 5 by omega) S1 _ rfl rfl 1 rfl (ix1 (0 : Fin 1))
    (fun b hb => absurd (Fin.ext (by show b.val = 0; have hb1 : b.val < 1 := b.isLt; omega)) hb) rfl).trans ?_
  refine (broadcastInDim_apply _ _ _ (ix1 (0 : Fin 1)) ix0 (fun a => a.elim0)).trans ?_
  exact scalarOf_apply _ 0 _ (0 : Fin 2) rfl ix0

theorem V_v35_2 (m : (ℓ : Loc nD τ sig) → Buf (Elt Ideal) ℓ) (c : Dev nD) : V m c main_v35 (ix2 (0 : Fin 1) (2 : Fin 5)) = m ((c.tc : Thread nD τ).loc main_arg8) (ix1 (1 : Fin 2)) := by
  refine (congrFun (V35_eq (F := Ideal) m c) (ix2 (0 : Fin 1) (2 : Fin 5))).trans ?_
  refine (shapeCast_a_1a_apply _ _ _ _).trans ?_
  refine (concatenate_apply_piece _ _ _ (ix1 (2 : Fin 5)) 2 (show _ < 5 by omega) S1 _ rfl rfl 2 rfl (ix1 (0 : Fin 1))
    (fun b hb => absurd (Fin.ext (by show b.val = 0; have hb1 : b.val < 1 := b.isLt; omega)) hb) rfl).trans ?_
  refine (broadcastInDim_apply _ _ _ (ix1 (0 : Fin 1)) ix0 (fun a => a.elim0)).trans ?_
  exact scalarOf_apply _ 1 _ (1 : Fin 2) rfl ix0

theorem V_v35_3 (m : (ℓ : Loc nD τ sig) → Buf (Elt Ideal) ℓ) (c : Dev nD) : V m c main_v35 (ix2 (0 : Fin 1) (3 : Fin 5)) = m ((c.tc : Thread nD τ).loc main_arg9) (ix1 (0 : Fin 2)) := by
  refine (congrFun (V35_eq (F := Ideal) m c) (ix2 (0 : Fin 1) (3 : Fin 5))).trans ?_
  refine (shapeCast_a_1a_apply _ _ _ _).trans ?_
  refine (concatenate_apply_piece _ _ _ (ix1 (3 : Fin 5)) 3 (show _ < 5 by omega) S1 _ rfl rfl 3 rfl (ix1 (0 : Fin 1))
    (fun b hb => absurd (Fin.ext (by show b.val = 0; have hb1 : b.val < 1 := b.isLt; omega)) hb) rfl).trans ?_
  refine (broadcastInDim_apply _ _ _ (ix1 (0 : Fin 1)) ix0 (fun a => a.elim0)).trans ?_
  exact scalarOf_apply _ 0 _ (0 : Fin 2) rfl ix0

theorem V_v35_4 (m : (ℓ : Loc nD τ sig) → Buf (Elt Ideal) ℓ) (c : Dev nD) : V m c main_v35 (ix2 (0 : Fin 1) (4 : Fin 5)) = m ((c.tc : Thread nD τ).loc main_arg9) (ix1 (1 : Fin 2)) := by
  refine (congrFun (V35_eq (F := Ideal) m c) (ix2 (0 : Fin 1) (4 : Fin 5))).trans ?_
  refine (shapeCast_a_1a_apply _ _ _ _).trans ?_
  refine (concatenate_apply_piece _ _ _ (ix1 (4 : Fin 5)) 4 (show _ < 5 by omega) S1 _ rfl rfl 4 rfl (ix1 (0 : Fin 1))
    (fun b hb => absurd (Fin.ext (by show b.val = 0; have hb1 : b.val < 1 := b.isLt; omega)) hb) rfl).trans ?_
  refine (broadcastInDim_apply _ _ _ (ix1 (0 : Fin 1)) ix0 (fun a => a.elim0)).trans ?_
  exact scalarOf_apply _ 1 _ (1 : Fin 2) rfl ix0

end Cert.KernelIdeal.Frame

end
-- ==== Proof.Consts.lean ====
/-
  The float literals of the two programs, as the extended reals their binary patterns denote when a float is
  read as an exact number: 0, 1, -1, 1/2, 2, 126, and the variance offset 10995116 · 2⁻⁴⁰ (the single-precision
  neighbour of 10⁻⁵), which only has to be a positive real.
-/
import Idealize.ShloMosaic.PureOps.Ideal

noncomputable section

namespace BinNet.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul] <;> norm_num

theorem ofBits_negOne : Ideal.ofBits .f32 0xBF800000#32 = ((-1 : ℝ) : EReal) := by
  simp [Ideal.ofBits, Ideal.ieee, -EReal.coe_mul] <;> norm_num

theorem ofBits_half : Ideal.ofBits .f32 0x3F000000#32 = ((1 / 2 : ℝ) : EReal) := by
  simp [Ideal.ofBits, Ideal.ieee, -EReal.coe_mul] <;> norm_num

theorem ofBits_two : Ideal.ofBits .f32 0x40000000#32 = ((2 : ℝ) : EReal) := by
  simp [Ideal.ofBits, Ideal.ieee, -EReal.coe_mul] <;> norm_num

theorem ofBits_126 : Ideal.ofBits .f32 0x42FC0000#32 = ((126 : ℝ) : EReal) := by
  simp [Ideal.ofBits, Ideal.ieee, -EReal.coe_mul] <;> norm_num

/-- The variance offset is a positive real number. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul] <;> norm_num

end BinNet.Consts

end
-- ==== Proof.LibBatchNorm.lean ====
/-
  Batch normalisation over the extended reals, for arrays all of whose entries are real numbers.

  The one-pass statistics  mean = (Σ h)/n,  var = (Σ h²)/n − mean²  and the two-pass statistics
  mean = (0 + Σ h)/n,  var = (0 + Σ (h − mean)²)/n  of a column h : R → EReal agree when n = |R| ≠ 0 and every
  entry of h is a real number: on ℝ this is  Σ (h − m)² = Σ h² − 2 m Σ h + |R| m²  with  m = (Σ h)/|R|.
  On the extended reals the identity needs the entries real (an infinite entry makes one side −∞ and the other +∞),
  so the module also carries the closure of "is a real number" under the operations a normalised two-layer
  perceptron is made of: sums, products, differences, finite sums, a quotient by a nonzero real, a maximum, and
  the reciprocal square root of a positive real.
-/
import Idealize.ShloMosaic.PureOps.Ideal
import Idealize.ShloMosaic.PureOps.Ideal.Laws

noncomputable section

namespace Cert.LibBatchNorm

open Idealize.ShloMosaic

/-! ## Real entries -/

/-- An extended real that is an ordinary real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h _ (Finset.mem_insert_self _ _)).add (ih fun i hi => h i (Finset.mem_insert_of_mem hi))

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real number by a nonzero real is a real number. -/
theorem IsReal.div_coe {x : EReal} (hx : IsReal x) {n : ℝ} (hn : n ≠ 0) : IsReal (Ideal.div x (n : EReal)) := by
  rw [Ideal.div_coe hn]; exact hx.mul (isReal_coe _)

/-- The reciprocal square root of a positive real is a real number. -/
theorem isReal_rsqrt_pos {r : ℝ} (hr : 0 < r) : IsReal (Ideal.rsqrt (r : EReal)) := by
  have : Ideal.rsqrt (r : EReal) = (((Real.sqrt r)⁻¹ : ℝ) : EReal) := by
    rw [Ideal.rsqrt_coe, if_neg (not_lt.mpr hr.le), if_neg hr.ne']
  rw [this]; exact isReal_coe _

/-! ## The two ways to a variance -/

/-- On ℝ: the mean of the squares minus the square of the mean is the mean of the squared deviations, for a
    family indexed by a type of `n` elements. -/
theorem var_identity {R : Type*} [Fintype R] (f : R → ℝ) (n : ℝ) (hn : n ≠ 0) (hc : (Fintype.card R : ℝ) = n) :
    (∑ r, f r * f r) * (1 / n) - ((∑ r, f r) * (1 / n)) * ((∑ r, f r) * (1 / n))
      = (∑ r, (f r - (∑ r, f r) * (1 / n)) * (f r - (∑ r, f r) * (1 / n))) * (1 / n) := by
  have h1 : ∀ m : ℝ, ∑ r, (f r - m) * (f r - m) = (∑ r, f r * f r) - 2 * m * (∑ r, f r) + n * (m * m) := by
    intro m
    have e : ∀ r, (f r - m) * (f r - m) = f r * f r - 2 * m * f r + m * m := fun r => by ring
    simp only [e, Finset.sum_add_distrib, Finset.sum_sub_distrib, ← Finset.mul_sum, Finset.sum_const,
      Finset.card_univ, nsmul_eq_mul, hc]
    ring
  rw [h1]
  field_simp
  ring

variable {R : Type*} [Fintype R]

/-- On the extended reals, for a column of real numbers: the one-pass variance is the two-pass variance. -/
theorem var_eq (h : R → EReal) (hh : ∀ r, IsReal (h r)) (n : ℝ) (hn : n ≠ 0) (hc : (Fintype.card R : ℝ) = n) :
    Ideal.div (∑ r, h r * h r) (n : EReal) - Ideal.div (∑ r, h r) (n : EReal) * Ideal.div (∑ r, h r) (n : EReal)
      = Ideal.div (0 + ∑ r, (h r - Ideal.div (0 + ∑ r, h r) (n : EReal)) * (h r - Ideal.div (0 + ∑ r, h r) (n : EReal)))
          (n : EReal) := by
  choose f hf using hh
  obtain rfl : h = fun r => (f r : EReal) := funext hf
  simp only [zero_add, Ideal.div_coe hn, ← EReal.coe_mul, ← coe_sum, ← EReal.coe_sub]
  exact congrArg _ (var_identity f n hn hc)

/-- The two-pass variance of a column of real numbers is a nonnegative real number. -/
theorem var_real_nonneg (h : R → EReal) (hh : ∀ r, IsReal (h r)) (n : ℝ) (hn : 0 < n) :
    ∃ v : ℝ, 0 ≤ v ∧ Ideal.div (0 + ∑ r, (h r - Ideal.div (0 + ∑ r, h r) (n : EReal)) * (h r - Ideal.div (0 + ∑ r, h r) (n : EReal)))
          (n : EReal) = (v : EReal) := by
  choose f hf using hh
  obtain rfl : h = fun r => (f r : EReal) := funext hf
  simp only [zero_add, Ideal.div_coe hn.ne', ← EReal.coe_mul, ← coe_sum, ← EReal.coe_sub]
  exact ⟨_, mul_nonneg (Finset.sum_nonneg fun r _ => mul_self_nonneg _) (by positivity), rfl⟩

end Cert.LibBatchNorm

end
-- ==== Proof.Spec.lean ====
/-
  One row of the binarized network, as exact arithmetic on the extended reals.

  A row x : Fin 126 → EReal is binarized, multiplied by the binarized 126 × 126 weight, normalized over its 126
  channels (mean, variance, reciprocal square root, scale and shift), clipped to [-1, 1], normalized and clipped once
  more (the "trunk"), binarized again and sent through a binarized 2 × 126 layer with bias and a last normalization
  over the two output channels.

  The reference spells binarization as  x + (sign x - x)  and normalizes the two outputs o₀, o₁ literally.
  The kernel spells it as  sign x  and uses that for two channels the mean is (o₀ + o₁)/2, the deviations are ±d with
  d = (o₀ - o₁)/2, and the variance is d²: it computes d directly from the difference of the two weight rows and of the
  two biases, then  t = d · rsqrt (d² + ε),  out₀ = t·γ₀ + β₀,  out₁ = (0 - t)·γ₁ + β₁.
  The two agree whenever x, the weights, the biases and the last scale and shift are real numbers: then
  x + (sign x - x) = sign x, a clipped value is always real, and the two-channel identity is algebra in ℝ
  (it fails at infinities, where x + (sign x - x) is not sign x).
-/
import Idealize.ShloMosaic.PureOps.Ideal
import Idealize.ShloMosaic.PureOps.Ideal.Laws
import proofs.«117246_j71339406787195_2_alg».proof.Proof.Consts
import proofs.«117246_j71339406787195_2_alg».proof.Proof.LibBatchNorm

noncomputable section

namespace BinNet

open Idealize.ShloMosaic Cert.LibBatchNorm

/-! ## The literals, as the programs spell them -/

abbrev cZero : EReal := Ideal.ofBits .f32 0x00000000#32
abbrev cPos1 : EReal := Ideal.ofBits .f32 0x3F800000#32
abbrev cNeg1 : EReal := Ideal.ofBits .f32 0xBF800000#32
abbrev cHalf : EReal := Ideal.ofBits .f32 0x3F000000#32
abbrev cTwo : EReal := Ideal.ofBits .f32 0x40000000#32
abbrev c126 : EReal := Ideal.ofBits .f32 0x42FC0000#32
abbrev cEps : EReal := Ideal.ofBits .f32 0x3727C5AC#32

/-! ## The layers -/

/-- The mean of a row of n channels, the divisor spelt cn. -/
def mean {n : ℕ} (cn : EReal) (h : Fin n → EReal) : EReal := Ideal.div (∑ k, h k) cn

/-- The mean of the squared deviations from the mean. -/
def var {n : ℕ} (cn : EReal) (h : Fin n → EReal) : EReal :=
  Ideal.div (∑ k, (h k - mean cn h) * (h k - mean cn h)) cn

/-- Normalization of a row over one group of all its channels, then scale and shift. -/
def gnorm {n : ℕ} (cn : EReal) (h γ β : Fin n → EReal) (c : Fin n) : EReal :=
  (h c - mean cn h) * Ideal.rsqrt (var cn h + cEps) * γ c + β c

/-- Clipping to [-1, 1]. -/
def clip (x : EReal) : EReal := min cPos1 (max cNeg1 x)

/-- Two normalize-and-clip layers. -/
def trunk (h γ1 β1 γ2 β2 : Fin 126 → EReal) (f : Fin 126) : EReal :=
  clip (gnorm c126 (fun k => clip (gnorm c126 h γ1 β1 k)) γ2 β2 f)

/-- Binarization as the reference spells it. -/
def ste (x : EReal) : EReal := x + (Ideal.sign x - x)

/-- The reference's row. -/
def refRow (x : Fin 126 → EReal) (W : Fin 126 → Fin 126 → EReal) (γ1 β1 γ2 β2 : Fin 126 → EReal)
    (L : Fin 2 → Fin 126 → EReal) (B G3 B3 : Fin 2 → EReal) (c : Fin 2) : EReal :=
  gnorm cTwo (fun c' => (∑ k, ste (trunk (fun j => ∑ k', ste (x k') * ste (W j k')) γ1 β1 γ2 β2 k) * ste (L c' k)) + B c')
    G3 B3 c

/-- The normalized half difference. -/
def kerT (d : EReal) : EReal := d * Ideal.rsqrt (d * d + cEps)

/-- The kernel's row over the parameters it is handed: the half difference wd of the two binarized weight rows, the
    half difference bd of the two biases, and the last scale and shift of each of the two channels. The half
    difference of the two pre-normalization outputs is  Σ sign(trunk) · wd + bd. -/
def kerRowP (x : Fin 126 → EReal) (W : Fin 126 → Fin 126 → EReal) (γ1 β1 γ2 β2 wd : Fin 126 → EReal)
    (bd g0 g1 b0 b1 : EReal) (c : Fin 2) : EReal :=
  if c = 0 then
    kerT ((∑ k, Ideal.sign (trunk (fun j => ∑ k', Ideal.sign (x k') * Ideal.sign (W j k')) γ1 β1 γ2 β2 k) * wd k) + bd) * g0 + b0
  else
    (cZero - kerT ((∑ k, Ideal.sign (trunk (fun j => ∑ k', Ideal.sign (x k') * Ideal.sign (W j k')) γ1 β1 γ2 β2 k) * wd k) + bd)) * g1 + b1

/-- The kernel's row over the network's own parameters. -/
def kerRow (x : Fin 126 → EReal) (W : Fin 126 → Fin 126 → EReal) (γ1 β1 γ2 β2 : Fin 126 → EReal)
    (L : Fin 2 → Fin 126 → EReal) (B G3 B3 : Fin 2 → EReal) (c : Fin 2) : EReal :=
  kerRowP x W γ1 β1 γ2 β2 (fun k => (Ideal.sign (L 0 k) - Ideal.sign (L 1 k)) * cHalf) ((B 0 - B 1) * cHalf)
    (G3 0) (G3 1) (B3 0) (B3 1) c

/-! ## Real values -/

theorem isReal_sign (y : EReal) : IsReal (Ideal.sign y) := by
  induction y using EReal.rec with
  | bot => exact ⟨-1, by rw [Ideal.sign_bot]; simp⟩
  | top => exact ⟨1, by rw [Ideal.sign_top]; simp⟩
  | coe r => exact ⟨_, Ideal.sign_coe r⟩

/-- On a real number the reference's binarization is the sign. -/
theorem ste_of_real {x : EReal} (hx : IsReal x) : ste x = Ideal.sign x := by
  obtain ⟨r, rfl⟩ := hx
  unfold ste
  rw [Ideal.sign_coe, ← EReal.coe_sub, ← EReal.coe_add]
  exact congrArg _ (by ring)

theorem IsReal.min' {x y : EReal} (hx : IsReal x) (hy : IsReal y) : IsReal (min x y) := by
  rcases min_choice x y with h | h <;> rw [h] <;> assumption

/-- A clipped value is a real number, whatever was clipped. -/
theorem isReal_clip (x : EReal) : IsReal (clip x) := by
  unfold clip
  rw [show cPos1 = ((1 : ℝ) : EReal) from Consts.ofBits_one, show cNeg1 = ((-1 : ℝ) : EReal) from Consts.ofBits_negOne]
  induction x using EReal.rec with
  | bot => rw [max_eq_left bot_le]; exact IsReal.min' (isReal_coe _) (isReal_coe _)
  | top => rw [max_eq_right le_top, min_eq_left le_top]; exact isReal_coe _
  | coe r => exact IsReal.min' (isReal_coe _) (IsReal.max (isReal_coe _) (isReal_coe _))

theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-! ## The two-channel normalization -/

/-- In ℝ: with o_c = Σ s·l_c + b_c, the half difference computed from the difference of the rows and of the biases
    is the deviation of o₀ from the mean, and its negative that of o₁. -/
theorem tail_real (S l0 l1 : Fin 126 → ℝ) (b0 b1 : ℝ) :
    ((∑ k, S k * ((l0 k - l1 k) * (1 / 2))) + (b0 - b1) * (1 / 2)
        = ((∑ k, S k * l0 k) + b0) - (((∑ k, S k * l0 k) + b0) + ((∑ k, S k * l1 k) + b1)) * (1 / 2))
    ∧ (0 - ((∑ k, S k * ((l0 k - l1 k) * (1 / 2))) + (b0 - b1) * (1 / 2))
        = ((∑ k, S k * l1 k) + b1) - (((∑ k, S k * l0 k) + b0) + ((∑ k, S k * l1 k) + b1)) * (1 / 2)) := by
  have hs : (∑ k, S k * ((l0 k - l1 k) * (1 / 2))) = ((∑ k, S k * l0 k) - (∑ k, S k * l1 k)) * (1 / 2) := by
    rw [← Finset.sum_sub_distrib, Finset.sum_mul]
    exact Finset.sum_congr rfl fun k _ => by ring
  rw [hs]
  constructor <;> ring

/-- The normalization of two real channels, in closed form. -/
theorem gnorm_two_coe (O G Bt : Fin 2 → EReal) (o g β : Fin 2 → ℝ) (e : ℝ) (he : 0 < e) (hE : cEps = (e : EReal))
    (hO : ∀ c, O c = (o c : EReal)) (hG : ∀ c, G c = (g c : EReal)) (hB : ∀ c, Bt c = (β c : EReal)) (c : Fin 2) :
    gnorm cTwo O G Bt c
      = (((o c - (o 0 + o 1) * (1 / 2))
          * (Real.sqrt (((o 0 - (o 0 + o 1) * (1 / 2)) * (o 0 - (o 0 + o 1) * (1 / 2))
              + (o 1 - (o 0 + o 1) * (1 / 2)) * (o 1 - (o 0 + o 1) * (1 / 2))) * (1 / 2) + e))⁻¹ * g c + β c : ℝ) : EReal) := by
  obtain rfl : O = fun c => (o c : EReal) := funext hO
  have hpos : 0 < ((o 0 - (o 0 + o 1) * (1 / 2)) * (o 0 - (o 0 + o 1) * (1 / 2))
              + (o 1 - (o 0 + o 1) * (1 / 2)) * (o 1 - (o 0 + o 1) * (1 / 2))) * (1 / 2) + e :=
    add_pos_of_nonneg_of_pos (mul_nonneg (add_nonneg (mul_self_nonneg _) (mul_self_nonneg _)) (by norm_num)) he
  unfold gnorm var mean
  rw [hG, hB, hE, show cTwo = ((2 : ℝ) : EReal) from Consts.ofBits_two]
  simp only [Fin.sum_univ_two, Ideal.div_coe (two_ne_zero : (2 : ℝ) ≠ 0), ← EReal.coe_add, ← EReal.coe_sub,
    ← EReal.coe_mul]
  rw [rsqrt_coe_pos hpos, ← EReal.coe_mul, ← EReal.coe_mul, ← EReal.coe_add]

/-- For real inputs and parameters the kernel's row is the reference's row. -/
theorem kerRow_eq_refRow (x : Fin 126 → EReal) (W : Fin 126 → Fin 126 → EReal) (γ1 β1 γ2 β2 : Fin 126 → EReal)
    (L : Fin 2 → Fin 126 → EReal) (B G3 B3 : Fin 2 → EReal)
    (hx : ∀ k, IsReal (x k)) (hW : ∀ j k, IsReal (W j k)) (hL : ∀ c k, IsReal (L c k))
    (hB : ∀ c, IsReal (B c)) (hG : ∀ c, IsReal (G3 c)) (hB3 : ∀ c, IsReal (B3 c)) (c : Fin 2) :
    kerRow x W γ1 β1 γ2 β2 L B G3 B3 c = refRow x W γ1 β1 γ2 β2 L B G3 B3 c := by
  have hH : (fun j => ∑ k', ste (x k') * ste (W j k')) = fun j => ∑ k', Ideal.sign (x k') * Ideal.sign (W j k') :=
    funext fun j => Finset.sum_congr rfl fun k _ => by rw [ste_of_real (hx k), ste_of_real (hW j k)]
  unfold refRow kerRow kerRowP
  rw [hH]
  generalize hT : trunk (fun j => ∑ k', Ideal.sign (x k') * Ideal.sign (W j k')) γ1 β1 γ2 β2 = T
  have hTr : ∀ k, IsReal (T k) := fun k => by rw [← hT]; exact isReal_clip _
  have e1 : ∀ k, ste (T k) = Ideal.sign (T k) := fun k => ste_of_real (hTr k)
  have e2 : ∀ c k, ste (L c k) = Ideal.sign (L c k) := fun c k => ste_of_real (hL c k)
  simp only [e1, e2]
  choose S hS using fun k => isReal_sign (T k)
  choose l hl using fun c k => isReal_sign (L c k)
  choose b hb using hB
  choose g hg using hG
  choose β hβ using hB3
  obtain ⟨e, he, hE⟩ := Consts.ofBits_eps
  have hO : ∀ c', (∑ k, Ideal.sign (T k) * Ideal.sign (L c' k)) + B c' = (((∑ k, S k * l c' k) + b c' : ℝ) : EReal) := by
    intro c'
    simp only [hS, hl, hb, ← EReal.coe_mul, ← coe_sum, ← EReal.coe_add]
  rw [gnorm_two_coe _ G3 B3 (fun c' => (∑ k, S k * l c' k) + b c') g β e he hE hO hg hβ c]
  have hD : (∑ k, Ideal.sign (T k) * ((Ideal.sign (L 0 k) - Ideal.sign (L 1 k)) * cHalf)) + (B 0 - B 1) * cHalf
      = (((∑ k, S k * ((l 0 k - l 1 k) * (1 / 2))) + (b 0 - b 1) * (1 / 2) : ℝ) : EReal) := by
    simp only [hS, hl, hb, show cHalf = ((1 / 2 : ℝ) : EReal) from Consts.ofBits_half, ← EReal.coe_sub,
      ← EReal.coe_mul, ← coe_sum, ← EReal.coe_add]
  obtain ⟨h0, h1⟩ := tail_real S (l 0) (l 1) (b 0) (b 1)
  have hv : ((∑ k, S k * ((l 0 k - l 1 k) * (1 / 2))) + (b 0 - b 1) * (1 / 2))
        * ((∑ k, S k * ((l 0 k - l 1 k) * (1 / 2))) + (b 0 - b 1) * (1 / 2))
      = (((((∑ k, S k * l 0 k) + b 0) - (((∑ k, S k * l 0 k) + b 0) + ((∑ k, S k * l 1 k) + b 1)) * (1 / 2))
            * (((∑ k, S k * l 0 k) + b 0) - (((∑ k, S k * l 0 k) + b 0) + ((∑ k, S k * l 1 k) + b 1)) * (1 / 2)))
          + ((((∑ k, S k * l 1 k) + b 1) - (((∑ k, S k * l 0 k) + b 0) + ((∑ k, S k * l 1 k) + b 1)) * (1 / 2))
            * (((∑ k, S k * l 1 k) + b 1) - (((∑ k, S k * l 0 k) + b 0) + ((∑ k, S k * l 1 k) + b 1)) * (1 / 2))))
          * (1 / 2) := by
    rw [← h1, ← h0]; ring
  have hpos : 0 < ((∑ k, S k * ((l 0 k - l 1 k) * (1 / 2))) + (b 0 - b 1) * (1 / 2))
        * ((∑ k, S k * ((l 0 k - l 1 k) * (1 / 2))) + (b 0 - b 1) * (1 / 2)) + e :=
    add_pos_of_nonneg_of_pos (mul_self_nonneg _) he
  rw [hD]
  unfold kerT
  have hEc : cEps = (e : EReal) := hE
  have hZc : cZero = ((0 : ℝ) : EReal) := Consts.ofBits_zero.trans EReal.coe_zero.symm
  rw [hEc, ← EReal.coe_mul, ← EReal.coe_add, rsqrt_coe_pos hpos]
  have hc : c = 0 ∨ c = 1 := by omega
  rcases hc with rfl | rfl
  · rw [if_pos rfl, hg, hβ]
    simp only [← EReal.coe_mul, ← EReal.coe_add]
    exact congrArg _ (by rw [hv, ← h0])
  · rw [if_neg (by decide), hg, hβ, hZc]
    simp only [← EReal.coe_mul, ← EReal.coe_add, ← EReal.coe_sub]
    exact congrArg _ (by rw [hv, ← h1]; ring)

end BinNet

end
-- ==== Proof.LibDenseRows.lean ====
/-
  General lemmas for a kernel that pushes tokens (rows) through dense layers and a row normalisation, all read at the
  exact (extended) reals, where every float operation is the textbook one:

  * the keepdims column forms: an `[a]` vector viewed as a column `[a, 1]`, and a column `[a, 1]` broadcast along
    the rows of an `[a, b]` array;
  * the sum of an `[a, b]` array along its second axis, read at a row, is the sum over that row;
  * a matrix product of an `[M, K]` array with an `[N, K]` array contracting BOTH second axes (the weight stored
    output-major, as a linear layer keeps it), accumulated into zero, read at `(r, c)`, is `Σ_k lhs (r, k) · rhs (c, k)`;
  * one dense layer: that product plus a bias row `[1, N]` broadcast over the rows.

  Nothing here mentions a particular program: the extents are variables, only ranks and axis lists are literal.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDenseRows

open Idealize.ShloMosaic Idealize.ShloMosaic.ValueIdx

/-! ## The keepdims column forms -/

section Layout
variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum -/

/-- The sum of an `[a, b]` array along its second axis, at the exact reals, read at row `r`: the sum over that row
    (the accumulator word is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-! ## A product against an output-major weight -/

section Dense
variable {M K N : ℕ} {φ₁ φ₂ : FTy}

/-- The dimension numbers of `[M, K] · [N, K]ᵀ`: both second axes contracted, no batch axis. -/
abbrev dimsNT (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  ⟨[1], [1], [0], [0], [], [], wf⟩

variable (wf : DotDims.WF (⟨2, ![M, K]⟩ : Shape) ⟨2, ![N, K]⟩ ⟨2, ![M, N]⟩ [1] [1] [0] [0] [] [])

theorem dimsNT_lhs0 (j : (⟨2, ![M, N]⟩ : Shape).Idx) (q : (dimsNT wf).contr.Idx) :
    ((dimsNT wf).lhsIdx j q 0).val = (j 0).val := by
  unfold DotDims.lhsIdx
  rw [dif_neg (show ¬(0 : Fin (⟨2, ![M, K]⟩ : Shape).rank) ∈ (dimsNT wf).lhsBatch from List.not_mem_nil),
    dif_pos (show (0 : Fin (⟨2, ![M, K]⟩ : Shape).rank) ∈ (dimsNT wf).lhsNonContracting from List.mem_singleton.mpr rfl)]
  rfl
theorem dimsNT_lhs1 (j : (⟨2, ![M, N]⟩ : Shape).Idx) (q : (dimsNT wf).contr.Idx) :
    ((dimsNT wf).lhsIdx j q 1).val = (q ⟨0, Nat.one_pos⟩).val :=
  (dimsNT wf).lhsIdx_val_of_single rfl j q
theorem dimsNT_rhs0 (j : (⟨2, ![M, N]⟩ : Shape).Idx) (q : (dimsNT wf).contr.Idx) :
    ((dimsNT wf).rhsIdx j q 0).val = (j 1).val := by
  unfold DotDims.rhsIdx
  rw [dif_neg (show ¬(0 : Fin (⟨2, ![N, K]⟩ : Shape).rank) ∈ (dimsNT wf).rhsBatch from List.not_mem_nil),
    dif_pos (show (0 : Fin (⟨2, ![N, K]⟩ : Shape).rank) ∈ (dimsNT wf).rhsNonContracting from List.mem_singleton.mpr rfl)]
  rfl
theorem dimsNT_rhs1 (j : (⟨2, ![M, N]⟩ : Shape).Idx) (q : (dimsNT wf).contr.Idx) :
    ((dimsNT wf).rhsIdx j q 1).val = (q ⟨0, Nat.one_pos⟩).val :=
  (dimsNT wf).rhsIdx_val_of_single rfl j q

/-- THE PRODUCT READ AT `(r, c)`: accumulated into the zero splat it is `Σ_k lhs (r, k) · rhs (c, k)` — a sum over a
    `Fin K` in which no order of accumulation is left. -/
theorem matmulNT_zero_apply (prec : Option ContractPrecision) (lhs : FVec Ideal ⟨2, ![M, K]⟩ φ₁)
    (rhs : FVec Ideal ⟨2, ![N, K]⟩ φ₂) (r : Fin M) (c : Fin N) :
    FloatOps.matmul (dimsNT wf) prec lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 r c) ((contrEquiv1 (dimsNT wf) K rfl rfl).symm k) = ix2 r k :=
    funext fun a => Fin.ext (by
      match a with
      | ⟨0, _⟩ => exact dimsNT_lhs0 wf _ _
      | ⟨1, _⟩ => exact (dimsNT_lhs1 wf _ _).trans hk)
  have er : (dimsNT wf).rhsIdx (ix2 r c) ((contrEquiv1 (dimsNT wf) K rfl rfl).symm k) = ix2 c k :=
    funext fun a => Fin.ext (by
      match a with
      | ⟨0, _⟩ => exact dimsNT_rhs0 wf _ _
      | ⟨1, _⟩ => exact (dimsNT_rhs1 wf _ _).trans hk)
  rw [el, er]

/-- ONE DENSE LAYER on a tile of `M` tokens: the product into zero plus a bias row `[1, N]` broadcast over the rows,
    read at token `r` and output unit `c`, is `Σ_k lhs (r, k) · rhs (c, k) + bias (0, c)`. -/
theorem denseNT_apply (prec : Option ContractPrecision) (lhs : FVec Ideal ⟨2, ![M, K]⟩ φ₁)
    (rhs : FVec Ideal ⟨2, ![N, K]⟩ φ₂) (bias : FVec Ideal ⟨2, ![1, N]⟩ .f32)
    (hb : (⟨2, ![1, N]⟩ : Shape).Broadcasts ⟨2, ![M, N]⟩) (r : Fin M) (c : Fin N) :
    addf (matmul (dimsNT wf) prec lhs rhs (constant ⟨2, ![M, N]⟩ .f32 0x00000000#32)) (broadcastTo ⟨2, ![M, N]⟩ bias hb) (ix2 r c)
      = ∑ k : Fin K, lhs (ix2 r k) * rhs (ix2 c k) + bias (ix2 (0 : Fin 1) c) := by
  rw [addf_apply, broadcastTo_1b_ab_apply]
  exact congrArg (· + bias (ix2 (0 : Fin 1) c)) (matmulNT_zero_apply wf prec lhs rhs r c)

end Dense

end Cert.LibDenseRows

end
-- ==== Proof.KernelBlock.lean ====
/-
  What one grid point's body leaves in its 128 × 128 output block, read at an entry.

  The body works on a tile of 8192 rows of 126 features. Row r of the tile goes through the binarized product with
  the 126 × 126 weight, two normalize-and-clip layers and the two-channel tail; its two results land, after the
  concatenation along the channel axis and the row-major re-laying of [8192, 2] as [128, 128], at the entry (p, q)
  with p·128 + q = 2·r + channel.
-/
import proofs.«117246_j71339406787195_2_alg».proof.Proof.FrameIdeal
import proofs.«117246_j71339406787195_2_alg».proof.Proof.Spec
import proofs.«117246_j71339406787195_2_alg».proof.Proof.LibDenseRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen
open Idealize.ShloMosaic Idealize.ShloMosaic.ValueIdx
open BinNet Cert.LibDenseRows

/-- Entry (r, c) of the binarized tile times the binarized weight, contracted over the feature axis of both. -/
def Hk (x0 : Vec Ideal S8192x126 .f32) (x1 : Vec Ideal S126x126 .f32) (r : Fin 8192) (c : Fin 126) : EReal :=
  ∑ k : Fin 126, Ideal.sign (x0 (ix2 r k)) * Ideal.sign (x1 (ix2 c k))

/-- The kernel's spelling of the sign — one with the argument's sign bit where the absolute value is positive, the
    argument itself at zero — is the sign of the extended real, at every entry. -/
theorem jsign {s : Shape} (v : FVec Ideal s .f32) (i : s.Idx) :
    select (cmpf .ogt (absf v) (broadcast s (Scalar.ofBits .f32 0x00000000#32)))
        (select (cmpf .olt v (constant s .f32 0x00000000#32)) (constant s .f32 0xBF800000#32)
          (constant s .f32 0x3F800000#32)) v i
      = Ideal.sign (v i) :=
  Ideal.jnp_sign_eq_sign_f32 (v i)

theorem pay2_apply (x0 : Vec Ideal S8192x126 .f32) (x1 : Vec Ideal S126x126 .f32) (r : Fin 8192) (c : Fin 126) :
    k0_pay2 (F := Ideal) x0 x1 (ix2 r c) = Hk x0 x1 r c := by
  unfold k0_pay2
  try dsimp only
  refine (matmulNT_zero_apply dot_S8192x126_S126x126_S8192x126_1_1_0_0_n_n_wf none _ _ r c).trans ?_
  refine Finset.sum_congr rfl fun k _ => ?_
  exact congrArg₂ (· * ·)
    ((jsign _ (ix2 r k)).trans (congrArg Ideal.sign (congrFun (shapeCast_self x0 _) (ix2 r k))))
    ((jsign _ (ix2 c k)).trans (congrArg Ideal.sign (congrFun (shapeCast_self x1 _) (ix2 c k))))

/-- The row mean. -/
theorem pay5_apply (x0 : Vec Ideal S8192x126 .f32) (x1 : Vec Ideal S126x126 .f32) (r : Fin 8192) :
    k0_pay5 (F := Ideal) x0 x1 (ix2 r (0 : Fin 1)) = mean c126 (Hk x0 x1 r) := by
  unfold k0_pay5 mean
  try dsimp only
  refine congrArg₂ Ideal.div ?_ rfl
  refine (shapeCast_a_a1_apply _ _ r 0).trans ?_
  refine (rowSum_apply _ _ _ _ _ r).trans ?_
  exact Finset.sum_congr rfl fun k _ => pay2_apply x0 x1 r k

/-- The deviation from the row mean. -/
theorem pay7_apply (x0 : Vec Ideal S8192x126 .f32) (x1 : Vec Ideal S126x126 .f32) (r : Fin 8192) (c : Fin 126) :
    k0_pay7 (F := Ideal) x0 x1 (ix2 r c) = Hk x0 x1 r c - mean c126 (Hk x0 x1 r) := by
  unfold k0_pay7
  try dsimp only
  exact congrArg₂ (· - ·) (pay2_apply x0 x1 r c) ((broadcastTo_a1_ab_apply _ _ r c).trans (pay5_apply x0 x1 r))

/-- The row variance. -/
theorem pay6_apply (x0 : Vec Ideal S8192x126 .f32) (x1 : Vec Ideal S126x126 .f32) (r : Fin 8192) :
    k0_pay6 (F := Ideal) x0 x1 (ix2 r (0 : Fin 1)) = var c126 (Hk x0 x1 r) := by
  unfold k0_pay6 var
  try dsimp only
  refine congrArg₂ Ideal.div ?_ rfl
  refine (shapeCast_a_a1_apply _ _ r 0).trans ?_
  refine (rowSum_apply _ _ _ _ _ r).trans ?_
  refine Finset.sum_congr rfl fun k _ => ?_
  exact congrArg₂ (· * ·) (pay7_apply x0 x1 r k) (pay7_apply x0 x1 r k)

theorem pay8_apply (r : Fin 8192) : k0_pay8 (F := Ideal) (ix2 r (0 : Fin 1)) = cEps := rfl

/-! ## A normalize-and-clip layer on a tile -/

/-- The mean of each row of a tile, kept as a column. -/
def rowMean (h : FVec Ideal S8192x126 .f32) : FVec Ideal S8192x1 .f32 :=
  divf (shapeCast S8192x1 (multiReduction .add [1] S8192 h 0x00000000#32 reduces_S8192x126_S8192 (.inl rfl) rfl) shapeCasts_S8192_S8192x1)
    (broadcast S8192x1 (Scalar.ofBits .f32 0x42FC0000#32))

theorem rowMean_apply (h : FVec Ideal S8192x126 .f32) (r : Fin 8192) :
    rowMean h (ix2 r (0 : Fin 1)) = mean c126 (fun k => h (ix2 r k)) := by
  unfold rowMean mean
  refine congrArg₂ Ideal.div ?_ rfl
  refine (shapeCast_a_a1_apply _ _ r 0).trans ?_
  exact rowSum_apply _ _ _ _ _ r

/-- Each entry less its row's mean. -/
def rowDev (h : FVec Ideal S8192x126 .f32) : FVec Ideal S8192x126 .f32 :=
  subf h (broadcastTo S8192x126 (rowMean h) broadcasts_S8192x1_S8192x126)

theorem rowDev_apply (h : FVec Ideal S8192x126 .f32) (r : Fin 8192) (c : Fin 126) :
    rowDev h (ix2 r c) = h (ix2 r c) - mean c126 (fun k => h (ix2 r k)) := by
  unfold rowDev
  exact congrArg₂ (· - ·) rfl ((broadcastTo_a1_ab_apply _ _ r c).trans (rowMean_apply h r))

/-- The mean of the squared deviations of each row. -/
def rowVar (h : FVec Ideal S8192x126 .f32) : FVec Ideal S8192x1 .f32 := rowMean (mulf (rowDev h) (rowDev h))

theorem rowVar_apply (h : FVec Ideal S8192x126 .f32) (r : Fin 8192) :
    rowVar h (ix2 r (0 : Fin 1)) = var c126 (fun k => h (ix2 r k)) := by
  unfold rowVar
  refine (rowMean_apply _ r).trans ?_
  unfold var
  exact congrArg (mean c126) (funext fun k => congrArg₂ (· * ·) (rowDev_apply h r k) (rowDev_apply h r k))

/-- Deviations times the reciprocal root of (variance + offset), times the scale row, plus the shift row, clipped. -/
def scaleShiftClip (dv : FVec Ideal S8192x126 .f32) (vr eps : FVec Ideal S8192x1 .f32) (γ β : FVec Ideal S1x126 .f32) :
    FVec Ideal S8192x126 .f32 :=
  minimumf (broadcast S8192x126 (Scalar.ofBits .f32 0x3F800000#32))
    (maximumf (broadcast S8192x126 (Scalar.ofBits .f32 0xBF800000#32))
      (addf (mulf (mulf dv (broadcastTo S8192x126 (rsqrt (addf vr eps)) broadcasts_S8192x1_S8192x126))
        (broadcastTo S8192x126 γ broadcasts_S1x126_S8192x126)) (broadcastTo S8192x126 β broadcasts_S1x126_S8192x126)))

theorem scaleShiftClip_apply (dv : FVec Ideal S8192x126 .f32) (vr eps : FVec Ideal S8192x1 .f32) (γ β : FVec Ideal S1x126 .f32)
    (r : Fin 8192) (f : Fin 126) :
    scaleShiftClip dv vr eps γ β (ix2 r f)
      = clip (dv (ix2 r f) * Ideal.rsqrt (vr (ix2 r (0 : Fin 1)) + eps (ix2 r (0 : Fin 1))) * γ (ix2 (0 : Fin 1) f)
          + β (ix2 (0 : Fin 1) f)) := by
  unfold scaleShiftClip clip
  refine congrArg₂ min rfl (congrArg₂ max rfl ?_)
  exact congrArg₂ (· + ·)
    (congrArg₂ (· * ·) (congrArg₂ (· * ·) rfl (broadcastTo_a1_ab_apply _ _ r f)) (broadcastTo_1b_ab_apply _ _ r f))
    (broadcastTo_1b_ab_apply _ _ r f)

/-- The trunk of row r of the tile: the second normalize-and-clip layer over the first, over the binarized product. -/
theorem pay9_apply (x0 : Vec Ideal S8192x126 .f32) (x1 : Vec Ideal S126x126 .f32) (x2 x3 x4 x5 : Vec Ideal S1x126 .f32)
    (r : Fin 8192) (f : Fin 126) :
    k0_pay9 (F := Ideal) (k0_pay3 x2) (k0_pay4 x3) (k0_pay6 x0 x1) (k0_pay7 x0 x1) (k0_pay8 (F := Ideal)) x4 x5 (ix2 r f)
      = trunk (Hk x0 x1 r) (fun k => x2 (ix2 (0 : Fin 1) k)) (fun k => x3 (ix2 (0 : Fin 1) k))
          (fun k => x4 (ix2 (0 : Fin 1) k)) (fun k => x5 (ix2 (0 : Fin 1) k)) f := by
  have h1 : ∀ k, scaleShiftClip (k0_pay7 (F := Ideal) x0 x1) (k0_pay6 (F := Ideal) x0 x1) (k0_pay8 (F := Ideal))
        (k0_pay3 (F := Ideal) x2) (k0_pay4 (F := Ideal) x3) (ix2 r k)
      = clip (gnorm c126 (Hk x0 x1 r) (fun k => x2 (ix2 (0 : Fin 1) k)) (fun k => x3 (ix2 (0 : Fin 1) k)) k) := by
    intro k
    refine (scaleShiftClip_apply _ _ _ _ _ r k).trans ?_
    rw [pay7_apply, pay6_apply, pay8_apply]
    unfold gnorm k0_pay3 k0_pay4
    rw [shapeCast_self, shapeCast_self]
  show scaleShiftClip
      (rowDev (scaleShiftClip (k0_pay7 (F := Ideal) x0 x1) (k0_pay6 (F := Ideal) x0 x1) (k0_pay8 (F := Ideal)) (k0_pay3 (F := Ideal) x2) (k0_pay4 (F := Ideal) x3)))
      (rowVar (scaleShiftClip (k0_pay7 (F := Ideal) x0 x1) (k0_pay6 (F := Ideal) x0 x1) (k0_pay8 (F := Ideal)) (k0_pay3 (F := Ideal) x2) (k0_pay4 (F := Ideal) x3)))
      (broadcast S8192x1 (Scalar.ofBits .f32 0x3727C5AC#32))
      (shapeCast S1x126 x4 shapeCasts_S1x126_S1x126) (shapeCast S1x126 x5 shapeCasts_S1x126_S1x126) (ix2 r f) = _
  refine (scaleShiftClip_apply _ _ _ _ _ r f).trans ?_
  rw [rowDev_apply, rowVar_apply, shapeCast_self, shapeCast_self]
  simp only [h1]
  rfl

/-! ## The two-channel tail, laid out in the block -/

/-- Entry a of the packed row of five scalars. -/
theorem param0 (v : FVec Ideal S1x5 .f32) :
    extractAt ![0, 0] (extractStridedSlice S1x1 ![0, 0] v slices_S1x5_o0_0_S1x1) inpos_S1x1_p0_0 = v (ix2 (0 : Fin 1) (0 : Fin 5)) :=
  congrArg v (funext fun d => Fin.ext (by match d with | ⟨0, _⟩ => rfl | ⟨1, _⟩ => rfl))
theorem param1 (v : FVec Ideal S1x5 .f32) :
    extractAt ![0, 0] (extractStridedSlice S1x1 ![0, 1] v slices_S1x5_o0_1_S1x1) inpos_S1x1_p0_0 = v (ix2 (0 : Fin 1) (1 : Fin 5)) :=
  congrArg v (funext fun d => Fin.ext (by match d with | ⟨0, _⟩ => rfl | ⟨1, _⟩ => rfl))
theorem param2 (v : FVec Ideal S1x5 .f32) :
    extractAt ![0, 0] (extractStridedSlice S1x1 ![0, 2] v slices_S1x5_o0_2_S1x1) inpos_S1x1_p0_0 = v (ix2 (0 : Fin 1) (2 : Fin 5)) :=
  congrArg v (funext fun d => Fin.ext (by match d with | ⟨0, _⟩ => rfl | ⟨1, _⟩ => rfl))
theorem param3 (v : FVec Ideal S1x5 .f32) :
    extractAt ![0, 0] (extractStridedSlice S1x1 ![0, 3] v slices_S1x5_o0_3_S1x1) inpos_S1x1_p0_0 = v (ix2 (0 : Fin 1) (3 : Fin 5)) :=
  congrArg v (funext fun d => Fin.ext (by match d with | ⟨0, _⟩ => rfl | ⟨1, _⟩ => rfl))
theorem param4 (v : FVec Ideal S1x5 .f32) :
    extractAt ![0, 0] (extractStridedSlice S1x1 ![0, 4] v slices_S1x5_o0_4_S1x1) inpos_S1x1_p0_0 = v (ix2 (0 : Fin 1) (4 : Fin 5)) :=
  congrArg v (funext fun d => Fin.ext (by match d with | ⟨0, _⟩ => rfl | ⟨1, _⟩ => rfl))

/-- Half the difference of the two pre-normalization outputs of each row, as a column: the row's binarized trunk
    against the half-difference weight row, plus the half-difference bias. -/
def dVec (sg : FVec Ideal S8192x126 .f32) (wd : FVec Ideal S1x126 .f32) (bd : EReal) : FVec Ideal S8192x1 .f32 :=
  addf (shapeCast S8192x1 (multiReduction .add [1] S8192 (mulf sg (broadcastTo S8192x126 wd broadcasts_S1x126_S8192x126))
      0x00000000#32 reduces_S8192x126_S8192 (.inl rfl) rfl) shapeCasts_S8192_S8192x1)
    (broadcast S8192x1 bd)

theorem dVec_apply (sg : FVec Ideal S8192x126 .f32) (wd : FVec Ideal S1x126 .f32) (bd : EReal) (r : Fin 8192) :
    dVec sg wd bd (ix2 r (0 : Fin 1)) = (∑ k : Fin 126, sg (ix2 r k) * wd (ix2 (0 : Fin 1) k)) + bd := by
  unfold dVec
  refine congrArg₂ (· + ·) ?_ rfl
  refine (shapeCast_a_a1_apply _ _ r 0).trans ?_
  refine (rowSum_apply _ _ _ _ _ r).trans ?_
  exact Finset.sum_congr rfl fun k _ => congrArg₂ (· * ·) rfl (broadcastTo_1b_ab_apply _ _ r k)

/-- The column of normalized half differences. -/
def tVec (d : FVec Ideal S8192x1 .f32) : FVec Ideal S8192x1 .f32 :=
  mulf d (rsqrt (addf (mulf d d) (broadcast S8192x1 (Scalar.ofBits .f32 0x3727C5AC#32))))

theorem tVec_apply (d : FVec Ideal S8192x1 .f32) (i : S8192x1.Idx) : tVec d i = kerT (d i) := rfl

/-- The two output columns side by side, re-laid row-major as a 128 × 128 block. -/
def tailBlock (t : FVec Ideal S8192x1 .f32) (g0 g1 b0 b1 : EReal) : FVec Ideal S128x128 .f32 :=
  shapeCast S128x128
    (concatenate S8192x2 1
      [⟨S8192x1, addf (mulf t (broadcast S8192x1 g0)) (broadcast S8192x1 b0)⟩,
       ⟨S8192x1, addf (mulf (subf (broadcast S8192x1 (Scalar.ofBits .f32 0x00000000#32)) t) (broadcast S8192x1 g1)) (broadcast S8192x1 b1)⟩]
      concatenates_S8192x1_S8192x1_S8192x2_d1)
    shapeCasts_S8192x2_S128x128

theorem tailBlock_apply (t : FVec Ideal S8192x1 .f32) (g0 g1 b0 b1 : EReal) (p q : Fin 128) :
    tailBlock t g0 g1 b0 b1 (ix2 p q)
      = if (⟨(p.val * 128 + q.val) % 2, Nat.mod_lt _ (by decide)⟩ : Fin 2) = 0
        then t (ix2 (⟨(p.val * 128 + q.val) / 2, by have := p.isLt; have := q.isLt; omega⟩ : Fin 8192) (0 : Fin 1)) * g0 + b0
        else (cZero - t (ix2 (⟨(p.val * 128 + q.val) / 2, by have := p.isLt; have := q.isLt; omega⟩ : Fin 8192) (0 : Fin 1))) * g1 + b1 := by
  have hp := p.isLt
  have hq := q.isLt
  unfold tailBlock
  refine (shapeCast_apply _ _ (ix2 p q)
    (ix2 (⟨(p.val * 128 + q.val) / 2, by omega⟩ : Fin 8192) (⟨(p.val * 128 + q.val) % 2, Nat.mod_lt _ (by decide)⟩ : Fin 2))
    (by rw [Shape.rowMajor_val_two, Shape.rowMajor_val_two]
        show (p.val * 128 + q.val) / 2 * 2 + (p.val * 128 + q.val) % 2 = p.val * 128 + q.val
        omega)).trans ?_
  rcases Nat.mod_two_eq_zero_or_one (p.val * 128 + q.val) with h | h
  · have hc : (⟨(p.val * 128 + q.val) % 2, Nat.mod_lt _ (by decide)⟩ : Fin 2) = 0 := Fin.ext h
    rw [if_pos hc]
    exact concatenate_pair_apply_left (1 : Fin S8192x2.rank) _ _ concatenates_S8192x1_S8192x1_S8192x2_d1 _ rfl
      (ix2 (⟨(p.val * 128 + q.val) / 2, by omega⟩ : Fin 8192) (0 : Fin 1))
      (fun b => by match b with | ⟨0, _⟩ => rfl | ⟨1, _⟩ => exact h.symm)
  · have hc : ¬ (⟨(p.val * 128 + q.val) % 2, Nat.mod_lt _ (by decide)⟩ : Fin 2) = 0 := fun e => by
      have := congrArg Fin.val e; simp at this; omega
    rw [if_neg hc]
    exact concatenate_pair_apply_right (1 : Fin S8192x2.rank) _ _ concatenates_S8192x1_S8192x1_S8192x2_d1 _ rfl rfl
      (ix2 (⟨(p.val * 128 + q.val) / 2, by omega⟩ : Fin 8192) (0 : Fin 1))
      (fun b hb => by match b with | ⟨0, _⟩ => rfl | ⟨1, _⟩ => exact absurd rfl hb)
      (by show 0 + 1 = (p.val * 128 + q.val) % 2; omega)

/-! ## The block -/

theorem zeros2 : (![0, 0] : Fin 2 → Nat) = fun _ => 0 := by
  funext a; match a with | ⟨0, _⟩ => rfl | ⟨1, _⟩ => rfl

/-- The block is the store's value over the eight input blocks: the one store covers the buffer, and each load reads
    its buffer whole. -/
theorem out0_8_eq (x0 : Vec Ideal S8192x126 .f32) (x1 : Vec Ideal S126x126 .f32) (x2 x3 x4 x5 x6 : Vec Ideal S1x126 .f32)
    (x7 : Vec Ideal S1x5 .f32) :
    Frame.out0_8 (F := Ideal) x0 x1 x2 x3 x4 x5 x6 x7
      = k0_pay1 (F := Ideal)
          (k0_pay9 (F := Ideal) (k0_pay3 x2) (k0_pay4 x3) (k0_pay6 x0 x1) (k0_pay7 x0 x1) (k0_pay8 (F := Ideal)) x4 x5)
          (k0_pay10 (F := Ideal) (k0_pay3 x2) (k0_pay4 x3) (k0_pay6 x0 x1) (k0_pay7 x0 x1) (k0_pay8 (F := Ideal)) x4 x5)
          x6 x7 := by
  unfold Frame.out0_8
  refine (View.canon_unit_zero zeros2 _ _).trans ?_
  rw [show View.ld x0 Frame.r0 = x0 from View.ld_unit_zero zeros2 _ x0,
    show View.ld x1 Frame.r1 = x1 from View.ld_unit_zero zeros2 _ x1,
    show View.ld x2 Frame.r2 = x2 from View.ld_unit_zero zeros2 _ x2,
    show View.ld x3 Frame.r2 = x3 from View.ld_unit_zero zeros2 _ x3,
    show View.ld x4 Frame.r2 = x4 from View.ld_unit_zero zeros2 _ x4,
    show View.ld x5 Frame.r2 = x5 from View.ld_unit_zero zeros2 _ x5,
    show View.ld x6 Frame.r2 = x6 from View.ld_unit_zero zeros2 _ x6,
    show View.ld x7 Frame.r7 = x7 from View.ld_unit_zero zeros2 _ x7]

/-- The last payload, from the clipped trunk v86 of the tile: binarize, take the half difference against the
    weight row, normalize, scale and shift per channel, lay the two columns out as the block. -/
theorem pay1_eq (v28 v30 : FVec Ideal S1x126 .f32) (v41 : FVec Ideal S8192x1 .f32) (v43 : FVec Ideal S8192x126 .f32)
    (v44 : FVec Ideal S8192x1 .f32) (v57 v59 v97 : Vec Ideal S1x126 .f32) (v103 : Vec Ideal S1x5 .f32) :
    k0_pay1 (F := Ideal) (k0_pay9 (F := Ideal) v28 v30 v41 v43 v44 v57 v59) (k0_pay10 (F := Ideal) v28 v30 v41 v43 v44 v57 v59) v97 v103
      = tailBlock
          (tVec (dVec
            (select (cmpf .ogt (absf (k0_pay9 (F := Ideal) v28 v30 v41 v43 v44 v57 v59)) (broadcast S8192x126 (Scalar.ofBits .f32 0x00000000#32)))
              (select (cmpf .olt (k0_pay9 (F := Ideal) v28 v30 v41 v43 v44 v57 v59) (constant S8192x126 .f32 0x00000000#32))
                (constant S8192x126 .f32 0xBF800000#32) (constant S8192x126 .f32 0x3F800000#32))
              (k0_pay9 (F := Ideal) v28 v30 v41 v43 v44 v57 v59))
            (shapeCast S1x126 v97 shapeCasts_S1x126_S1x126)
            (extractAt ![0, 0] (extractStridedSlice S1x1 ![0, 0] (shapeCast S1x5 v103 shapeCasts_S1x5_S1x5) slices_S1x5_o0_0_S1x1) inpos_S1x1_p0_0)))
          (extractAt ![0, 0] (extractStridedSlice S1x1 ![0, 1] (shapeCast S1x5 v103 shapeCasts_S1x5_S1x5) slices_S1x5_o0_1_S1x1) inpos_S1x1_p0_0)
          (extractAt ![0, 0] (extractStridedSlice S1x1 ![0, 2] (shapeCast S1x5 v103 shapeCasts_S1x5_S1x5) slices_S1x5_o0_2_S1x1) inpos_S1x1_p0_0)
          (extractAt ![0, 0] (extractStridedSlice S1x1 ![0, 3] (shapeCast S1x5 v103 shapeCasts_S1x5_S1x5) slices_S1x5_o0_3_S1x1) inpos_S1x1_p0_0)
          (extractAt ![0, 0] (extractStridedSlice S1x1 ![0, 4] (shapeCast S1x5 v103 shapeCasts_S1x5_S1x5) slices_S1x5_o0_4_S1x1) inpos_S1x1_p0_0) := by
  unfold k0_pay1 k0_pay10 tailBlock tVec dVec
  rfl

/-- ENTRY (p, q) OF THE BLOCK a grid point writes, from its eight input blocks: the kernel's row function of tile row
    (p·128 + q) / 2, at channel (p·128 + q) mod 2. -/
theorem out0_8_apply (x0 : Vec Ideal S8192x126 .f32) (x1 : Vec Ideal S126x126 .f32) (x2 x3 x4 x5 x6 : Vec Ideal S1x126 .f32)
    (x7 : Vec Ideal S1x5 .f32) (p q : Fin 128) :
    Frame.out0_8 (F := Ideal) x0 x1 x2 x3 x4 x5 x6 x7 (ix2 p q)
      = kerRowP (fun k => x0 (ix2 (⟨(p.val * 128 + q.val) / 2, by have := p.isLt; have := q.isLt; omega⟩ : Fin 8192) k))
          (fun j k => x1 (ix2 j k)) (fun k => x2 (ix2 (0 : Fin 1) k)) (fun k => x3 (ix2 (0 : Fin 1) k))
          (fun k => x4 (ix2 (0 : Fin 1) k)) (fun k => x5 (ix2 (0 : Fin 1) k)) (fun k => x6 (ix2 (0 : Fin 1) k))
          (x7 (ix2 (0 : Fin 1) (0 : Fin 5))) (x7 (ix2 (0 : Fin 1) (1 : Fin 5))) (x7 (ix2 (0 : Fin 1) (2 : Fin 5)))
          (x7 (ix2 (0 : Fin 1) (3 : Fin 5))) (x7 (ix2 (0 : Fin 1) (4 : Fin 5)))
          (⟨(p.val * 128 + q.val) % 2, Nat.mod_lt _ (by decide)⟩ : Fin 2) := by
  rw [out0_8_eq, pay1_eq]
  have hv : ∀ r f, k0_pay9 (F := Ideal) (k0_pay3 x2) (k0_pay4 x3) (k0_pay6 x0 x1) (k0_pay7 x0 x1) (k0_pay8 (F := Ideal)) x4 x5 (ix2 r f)
      = trunk (Hk x0 x1 r) (fun k => x2 (ix2 (0 : Fin 1) k)) (fun k => x3 (ix2 (0 : Fin 1) k))
      (fun k => x4 (ix2 (0 : Fin 1) k)) (fun k => x5 (ix2 (0 : Fin 1) k)) f := fun r f => pay9_apply x0 x1 x2 x3 x4 x5 r f
  generalize k0_pay9 (F := Ideal) (k0_pay3 x2) (k0_pay4 x3) (k0_pay6 x0 x1) (k0_pay7 x0 x1) (k0_pay8 (F := Ideal)) x4 x5 = v86 at hv ⊢
  rw [tailBlock_apply, tVec_apply, dVec_apply, param0, param1, param2, param3, param4, shapeCast_self, shapeCast_self]
  unfold kerRowP
  simp only [jsign, hv]
  rfl

end Cert.KernelIdeal.Block

end
-- ==== Proof.RefRow.lean ====
/-
  The reference program's result at a row b and channel c is the reference's row function of row b of the input.

  The host program is: binarize (spelt x + (sign x - x)) and multiply; twice normalize over the 126 channels, scale,
  shift and clip; binarize and multiply by the binarized 2 × 126 weight, add the bias; normalize over the 2 channels,
  scale and shift. Each normalization is the same stretch of host operations on another buffer, so it is read once,
  as a function of its input array, and the program's stages are instances of it.
-/
import proofs.«117246_j71339406787195_2_alg».proof.Proof.Gen.ReferenceIdeal.Run
import proofs.«117246_j71339406787195_2_alg».proof.Proof.Gen.ReferenceIdeal.Read
import proofs.«117246_j71339406787195_2_alg».proof.Proof.Spec
import Idealize.ShloMosaic.Lib.Pipeline.Value
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read
open Idealize.ShloMosaic Idealize.ShloMosaic.ValueIdx
open BinNet

/-! ## Layout operations of the host program, read at an index -/

theorem col_of_vec (y : FVec Ideal S262144 .f32) (b : Fin 262144) (u : Fin 1) :
    broadcastInDim S262144x1 ![0] bcast_S262144_S262144x1_0 y (ix2 b u) = y (ix1 b) :=
  broadcastInDim_apply _ bcast_S262144_S262144x1_0 y (ix2 b u) (ix1 b) (fun a => match a with
    | ⟨0, _⟩ => by show b.val = if (262144 : Nat) = 1 then 0 else b.val; rw [if_neg (by decide)])

theorem col_of_scalar (y : FVec Ideal S_ .f32) (i : S262144x1.Idx) :
    broadcastInDim S262144x1 ![] bcast_S_S262144x1 y i = y ix0 :=
  broadcastInDim_apply _ bcast_S_S262144x1 y i ix0 (fun a => a.elim0)

theorem tile_of_scalar (y : FVec Ideal S_ .f32) (i : S262144x126.Idx) :
    broadcastInDim S262144x126 ![] bcast_S_S262144x126 y i = y ix0 :=
  broadcastInDim_apply _ bcast_S_S262144x126 y i ix0 (fun a => a.elim0)

theorem tile_of_col (y : FVec Ideal S262144x1 .f32) (b : Fin 262144) (c : Fin 126) :
    broadcastInDim S262144x126 ![0, 1] bcast_S262144x1_S262144x126_0_1 y (ix2 b c) = y (ix2 b (0 : Fin 1)) :=
  broadcastInDim_apply _ bcast_S262144x1_S262144x126_0_1 y (ix2 b c) (ix2 b (0 : Fin 1)) (fun a => match a with
    | ⟨0, _⟩ => by show b.val = if (262144 : Nat) = 1 then 0 else b.val; rw [if_neg (by decide)]
    | ⟨1, _⟩ => by show 0 = if (1 : Nat) = 1 then 0 else c.val; rw [if_pos rfl])

theorem tile_of_row (y : FVec Ideal S126 .f32) (b : Fin 262144) (c : Fin 126) :
    broadcastInDim S262144x126 ![0, 1] bcast_S1x126_S262144x126_0_1 (broadcastInDim S1x126 ![1] bcast_S126_S1x126_1 y) (ix2 b c)
      = y (ix1 c) := by
  refine (broadcastInDim_apply _ bcast_S1x126_S262144x126_0_1 _ (ix2 b c) (ix2 (0 : Fin 1) c) (fun a => match a with
    | ⟨0, _⟩ => by show 0 = if (1 : Nat) = 1 then 0 else b.val; rw [if_pos rfl]
    | ⟨1, _⟩ => by show c.val = if (126 : Nat) = 1 then 0 else c.val; rw [if_neg (by decide)])).trans ?_
  exact broadcastInDim_apply _ bcast_S126_S1x126_1 y (ix2 (0 : Fin 1) c) (ix1 c) (fun a => match a with
    | ⟨0, _⟩ => by show c.val = if (126 : Nat) = 1 then 0 else c.val; rw [if_neg (by decide)])

theorem pair_of_col (y : FVec Ideal S262144x1 .f32) (b : Fin 262144) (c : Fin 2) :
    broadcastInDim S262144x2 ![0, 1] bcast_S262144x1_S262144x2_0_1 y (ix2 b c) = y (ix2 b (0 : Fin 1)) :=
  broadcastInDim_apply _ bcast_S262144x1_S262144x2_0_1 y (ix2 b c) (ix2 b (0 : Fin 1)) (fun a => match a with
    | ⟨0, _⟩ => by show b.val = if (262144 : Nat) = 1 then 0 else b.val; rw [if_neg (by decide)]
    | ⟨1, _⟩ => by show 0 = if (1 : Nat) = 1 then 0 else c.val; rw [if_pos rfl])

theorem pair_of_row (y : FVec Ideal S2 .f32) (b : Fin 262144) (c : Fin 2) :
    broadcastInDim S262144x2 ![0, 1] bcast_S1x2_S262144x2_0_1 (broadcastInDim S1x2 ![1] bcast_S2_S1x2_1 y) (ix2 b c)
      = y (ix1 c) := by
  refine (broadcastInDim_apply _ bcast_S1x2_S262144x2_0_1 _ (ix2 b c) (ix2 (0 : Fin 1) c) (fun a => match a with
    | ⟨0, _⟩ => by show 0 = if (1 : Nat) = 1 then 0 else b.val; rw [if_pos rfl]
    | ⟨1, _⟩ => by show c.val = if (2 : Nat) = 1 then 0 else c.val; rw [if_neg (by decide)])).trans ?_
  exact broadcastInDim_apply _ bcast_S2_S1x2_1 y (ix2 (0 : Fin 1) c) (ix1 c) (fun a => match a with
    | ⟨0, _⟩ => by show c.val = if (2 : Nat) = 1 then 0 else c.val; rw [if_neg (by decide)])

/-- A row sum of a [262144, 126] array started from zero is the sum over the row. -/
theorem rowSum126 (h : FVec Ideal S262144x126 .f32) (b : Fin 262144) :
    Host.reduceAdd h (constant S_ .f32 0x00000000#32) reducesTo_S262144x126_S262144_d1 h_S_ (ix1 b)
      = ∑ k : Fin 126, h (ix2 b k) := by
  simp only [Host.reduceAdd, Ideal.hostReduceAdd_def]
  rw [Ideal.hostReduceAdd_single reducesTo_S262144x126_S262144_d1 (by decide)]
  refine (congrArg (· + _) (show constant (F := Ideal) S_ .f32 0x00000000#32 (Shape.Idx.first h_S_) = 0 from Ideal.ofBits_zero_f32)).trans ?_
  rw [zero_add]
  exact Finset.sum_congr rfl fun k _ => congrArg h (funext fun a => Fin.ext (by match a with | ⟨0, _⟩ => rfl | ⟨1, _⟩ => rfl))

/-- The same for a [262144, 2] array. -/
theorem rowSum2 (h : FVec Ideal S262144x2 .f32) (b : Fin 262144) :
    Host.reduceAdd h (constant S_ .f32 0x00000000#32) reducesTo_S262144x2_S262144_d1 h_S_ (ix1 b)
      = ∑ k : Fin 2, h (ix2 b k) := by
  simp only [Host.reduceAdd, Ideal.hostReduceAdd_def]
  rw [Ideal.hostReduceAdd_single reducesTo_S262144x2_S262144_d1 (by decide)]
  refine (congrArg (· + _) (show constant (F := Ideal) S_ .f32 0x00000000#32 (Shape.Idx.first h_S_) = 0 from Ideal.ofBits_zero_f32)).trans ?_
  rw [zero_add]
  exact Finset.sum_congr rfl fun k _ => congrArg h (funext fun a => Fin.ext (by match a with | ⟨0, _⟩ => rfl | ⟨1, _⟩ => rfl))

/-! ## A normalize-and-clip layer over 126 channels -/

def hMean (h : FVec Ideal S262144x126 .f32) : FVec Ideal S262144x1 .f32 :=
  Host.divf
    (broadcastInDim S262144x1 ![0] bcast_S262144_S262144x1_0
      (Host.reduceAdd h (constant S_ .f32 0x00000000#32) reducesTo_S262144x126_S262144_d1 h_S_))
    (broadcastInDim S262144x1 ![] bcast_S_S262144x1 (constant S_ .f32 0x42FC0000#32))

theorem hMean_apply (h : FVec Ideal S262144x126 .f32) (b : Fin 262144) :
    hMean h (ix2 b (0 : Fin 1)) = mean c126 (fun k => h (ix2 b k)) := by
  unfold hMean mean
  exact congrArg₂ Ideal.div ((col_of_vec _ b 0).trans (rowSum126 h b)) (col_of_scalar _ _)

def hDev (h : FVec Ideal S262144x126 .f32) : FVec Ideal S262144x126 .f32 :=
  subf h (broadcastInDim S262144x126 ![0, 1] bcast_S262144x1_S262144x126_0_1 (hMean h))

theorem hDev_apply (h : FVec Ideal S262144x126 .f32) (b : Fin 262144) (c : Fin 126) :
    hDev h (ix2 b c) = h (ix2 b c) - mean c126 (fun k => h (ix2 b k)) := by
  unfold hDev
  exact congrArg₂ (· - ·) rfl ((tile_of_col _ b c).trans (hMean_apply h b))

def hVar (h : FVec Ideal S262144x126 .f32) : FVec Ideal S262144x1 .f32 := hMean (mulf (hDev h) (hDev h))

theorem hVar_apply (h : FVec Ideal S262144x126 .f32) (b : Fin 262144) :
    hVar h (ix2 b (0 : Fin 1)) = var c126 (fun k => h (ix2 b k)) := by
  unfold hVar
  refine (hMean_apply _ b).trans ?_
  unfold var
  exact congrArg (mean c126) (funext fun k => congrArg₂ (· * ·) (hDev_apply h b k) (hDev_apply h b k))

/-- Normalize, scale, shift and clip, as the host program spells it. -/
def hLayer (h : FVec Ideal S262144x126 .f32) (γ β : FVec Ideal S126 .f32) : FVec Ideal S262144x126 .f32 :=
  minimumf (broadcastInDim S262144x126 ![] bcast_S_S262144x126 (id (constant S_ .f32 0x3F800000#32)))
    (maximumf (broadcastInDim S262144x126 ![] bcast_S_S262144x126 (id (constant S_ .f32 0xBF800000#32)))
      (addf
        (mulf
          (mulf (hDev h)
            (broadcastInDim S262144x126 ![0, 1] bcast_S262144x1_S262144x126_0_1
              (Host.rsqrt (addf (hVar h) (broadcastInDim S262144x1 ![] bcast_S_S262144x1 (constant S_ .f32 0x3727C5AC#32))))))
          (broadcastInDim S262144x126 ![0, 1] bcast_S1x126_S262144x126_0_1 (broadcastInDim S1x126 ![1] bcast_S126_S1x126_1 γ)))
        (broadcastInDim S262144x126 ![0, 1] bcast_S1x126_S262144x126_0_1 (broadcastInDim S1x126 ![1] bcast_S126_S1x126_1 β))))

theorem hLayer_apply (h : FVec Ideal S262144x126 .f32) (γ β : FVec Ideal S126 .f32) (b : Fin 262144) (c : Fin 126) :
    hLayer h γ β (ix2 b c)
      = clip (gnorm c126 (fun k => h (ix2 b k)) (fun k => γ (ix1 k)) (fun k => β (ix1 k)) c) := by
  unfold hLayer clip gnorm
  refine congrArg₂ min (tile_of_scalar _ _) (congrArg₂ max (tile_of_scalar _ _) ?_)
  refine congrArg₂ (· + ·) (congrArg₂ (· * ·) (congrArg₂ (· * ·) (hDev_apply h b c) ?_) (tile_of_row γ b c)) (tile_of_row β b c)
  refine (tile_of_col _ b c).trans ?_
  exact congrArg Ideal.rsqrt (congrArg₂ (· + ·) (hVar_apply h b) (col_of_scalar _ _))

/-! ## The last normalization, over 2 channels -/

def tMean (o : FVec Ideal S262144x2 .f32) : FVec Ideal S262144x1 .f32 :=
  Host.divf
    (broadcastInDim S262144x1 ![0] bcast_S262144_S262144x1_0
      (Host.reduceAdd o (constant S_ .f32 0x00000000#32) reducesTo_S262144x2_S262144_d1 h_S_))
    (broadcastInDim S262144x1 ![] bcast_S_S262144x1 (constant S_ .f32 0x40000000#32))

theorem tMean_apply (o : FVec Ideal S262144x2 .f32) (b : Fin 262144) :
    tMean o (ix2 b (0 : Fin 1)) = mean cTwo (fun k => o (ix2 b k)) := by
  unfold tMean mean
  exact congrArg₂ Ideal.div ((col_of_vec _ b 0).trans (rowSum2 o b)) (col_of_scalar _ _)

def tDev (o : FVec Ideal S262144x2 .f32) : FVec Ideal S262144x2 .f32 :=
  subf o (broadcastInDim S262144x2 ![0, 1] bcast_S262144x1_S262144x2_0_1 (tMean o))

theorem tDev_apply (o : FVec Ideal S262144x2 .f32) (b : Fin 262144) (c : Fin 2) :
    tDev o (ix2 b c) = o (ix2 b c) - mean cTwo (fun k => o (ix2 b k)) := by
  unfold tDev
  exact congrArg₂ (· - ·) rfl ((pair_of_col _ b c).trans (tMean_apply o b))

def tVar (o : FVec Ideal S262144x2 .f32) : FVec Ideal S262144x1 .f32 := tMean (mulf (tDev o) (tDev o))

theorem tVar_apply (o : FVec Ideal S262144x2 .f32) (b : Fin 262144) :
    tVar o (ix2 b (0 : Fin 1)) = var cTwo (fun k => o (ix2 b k)) := by
  unfold tVar
  refine (tMean_apply _ b).trans ?_
  unfold var
  exact congrArg (mean cTwo) (funext fun k => congrArg₂ (· * ·) (tDev_apply o b k) (tDev_apply o b k))

def tLayer (o : FVec Ideal S262144x2 .f32) (γ β : FVec Ideal S2 .f32) : FVec Ideal S262144x2 .f32 :=
  addf
    (mulf
      (mulf (tDev o)
        (broadcastInDim S262144x2 ![0, 1] bcast_S262144x1_S262144x2_0_1
          (Host.rsqrt (addf (tVar o) (broadcastInDim S262144x1 ![] bcast_S_S262144x1 (constant S_ .f32 0x3727C5AC#32))))))
      (broadcastInDim S262144x2 ![0, 1] bcast_S1x2_S262144x2_0_1 (broadcastInDim S1x2 ![1] bcast_S2_S1x2_1 γ)))
    (broadcastInDim S262144x2 ![0, 1] bcast_S1x2_S262144x2_0_1 (broadcastInDim S1x2 ![1] bcast_S2_S1x2_1 β))

theorem tLayer_apply (o : FVec Ideal S262144x2 .f32) (γ β : FVec Ideal S2 .f32) (b : Fin 262144) (c : Fin 2) :
    tLayer o γ β (ix2 b c) = gnorm cTwo (fun k => o (ix2 b k)) (fun k => γ (ix1 k)) (fun k => β (ix1 k)) c := by
  unfold tLayer gnorm
  refine congrArg₂ (· + ·) (congrArg₂ (· * ·) (congrArg₂ (· * ·) (tDev_apply o b c) ?_) (pair_of_row γ b c)) (pair_of_row β b c)
  refine (pair_of_col _ b c).trans ?_
  exact congrArg Ideal.rsqrt (congrArg₂ (· + ·) (tVar_apply o b) (col_of_scalar _ _))

/-! ## The program's stages -/

variable (x0 : FVec Ideal S262144x1x1x126 .f32) (x1 : FVec Ideal S126x1x1x126 .f32) (x2 x3 x4 x5 : FVec Ideal S126 .f32)
  (x6 : FVec Ideal S2x126 .f32) (x7 x8 x9 : FVec Ideal S2 .f32)

/-- The binarized product. -/
theorem v8_apply (b : Fin 262144) (c : Fin 126) :
    val_main_v8 (F := Ideal) x0 x1 (ix2 b c)
      = ∑ k : Fin 126, ste (x0 (ix4 b (0 : Fin 1) (0 : Fin 1) k)) * ste (x1 (ix4 c (0 : Fin 1) (0 : Fin 1) k)) := by
  rw [val_main_v8_apply]
  refine Finset.sum_congr rfl fun k _ => ?_
  have e0 : idx_main_v0 (lidx_main_v8 (ix2 b c) k) = ix4 b (0 : Fin 1) (0 : Fin 1) k := funext fun a => Fin.ext (by
    have hk := k.isLt
    match a with
    | ⟨0, _⟩ => show (b.val * 126 + k.val) / 126 = b.val; omega
    | ⟨1, _⟩ => rfl
    | ⟨2, _⟩ => rfl
    | ⟨3, _⟩ => show (b.val * 126 + k.val) % 126 = k.val; omega)
  have e1 : idx_main_v4 (ridx_main_v8 (ix2 b c) k) = ix4 c (0 : Fin 1) (0 : Fin 1) k := funext fun a => Fin.ext (by
    have hk := k.isLt
    match a with
    | ⟨0, _⟩ => show (c.val * 126 + k.val) / 126 = c.val; omega
    | ⟨1, _⟩ => rfl
    | ⟨2, _⟩ => rfl
    | ⟨3, _⟩ => show (c.val * 126 + k.val) % 126 = k.val; omega)
  rw [val_main_v3_apply, val_main_v2_apply, val_main_v1_apply, val_main_v0_apply, val_main_v7_apply, val_main_v6_apply,
    val_main_v5_apply, val_main_v4_apply, e0, e1]
  rfl

theorem v33_eq : val_main_v33 (F := Ideal) x0 x1 x2 x3 = hLayer (val_main_v8 (F := Ideal) x0 x1) x2 x3 := rfl

theorem v58_eq : val_main_v58 (F := Ideal) x0 x1 x2 x3 x4 x5 = hLayer (val_main_v33 (F := Ideal) x0 x1 x2 x3) x4 x5 := rfl

/-- The trunk of row b. -/
theorem v58_apply (b : Fin 262144) (f : Fin 126) :
    val_main_v58 (F := Ideal) x0 x1 x2 x3 x4 x5 (ix2 b f)
      = trunk (fun j => ∑ k : Fin 126, ste (x0 (ix4 b (0 : Fin 1) (0 : Fin 1) k)) * ste (x1 (ix4 j (0 : Fin 1) (0 : Fin 1) k)))
          (fun k => x2 (ix1 k)) (fun k => x3 (ix1 k)) (fun k => x4 (ix1 k)) (fun k => x5 (ix1 k)) f := by
  rw [v58_eq, hLayer_apply]
  unfold trunk
  simp only [v33_eq, hLayer_apply, v8_apply]

/-- The two outputs before the last normalization. -/
theorem v68_apply (b : Fin 262144) (c : Fin 2) :
    val_main_v68 (F := Ideal) x0 x1 x2 x3 x4 x5 x6 x7 (ix2 b c)
      = (∑ k : Fin 126, ste (val_main_v58 (F := Ideal) x0 x1 x2 x3 x4 x5 (ix2 b k)) * ste (x6 (ix2 c k))) + x7 (ix1 c) := by
  rw [val_main_v68_apply, val_main_v65_apply]
  refine congrArg₂ (· + ·) (Finset.sum_congr rfl fun k _ => ?_) ?_
  · have el : lidx_main_v65 (ix2 b c) k = ix2 b k := funext fun a => Fin.ext (by match a with | ⟨0, _⟩ => rfl | ⟨1, _⟩ => rfl)
    have er : ridx_main_v65 (ix2 b c) k = ix2 c k := funext fun a => Fin.ext (by match a with | ⟨0, _⟩ => rfl | ⟨1, _⟩ => rfl)
    rw [val_main_v61_apply, val_main_v60_apply, val_main_v59_apply, val_main_v64_apply, val_main_v63_apply, val_main_v62_apply, el, er]
    rfl
  · rw [val_main_v67_apply, val_main_v66_apply]
    exact congrArg x7 (funext fun a => Fin.ext (by match a with | ⟨0, _⟩ => rfl))

theorem v92_eq : val_main_v92 (F := Ideal) x0 x1 x2 x3 x4 x5 x6 x7 x8 x9
    = tLayer (val_main_v68 (F := Ideal) x0 x1 x2 x3 x4 x5 x6 x7) x8 x9 := rfl

/-- THE REFERENCE'S RESULT at row b and channel c: the reference's row function of row b of the input. -/
theorem v92_apply (b : Fin 262144) (c : Fin 2) :
    val_main_v92 (F := Ideal) x0 x1 x2 x3 x4 x5 x6 x7 x8 x9 (ix2 b c)
      = refRow (fun k => x0 (ix4 b (0 : Fin 1) (0 : Fin 1) k)) (fun j k => x1 (ix4 j (0 : Fin 1) (0 : Fin 1) k))
          (fun k => x2 (ix1 k)) (fun k => x3 (ix1 k)) (fun k => x4 (ix1 k)) (fun k => x5 (ix1 k))
          (fun c' k => x6 (ix2 c' k)) (fun c' => x7 (ix1 c')) (fun c' => x8 (ix1 c')) (fun c' => x9 (ix1 c')) c := by
  rw [v92_eq, tLayer_apply]
  unfold refRow
  simp only [v68_apply, v58_apply]

end Cert.ReferenceIdeal.Row

end
-- ==== Proof.Bridge.lean ====
/-
  The two results agree entry by entry.

  Entry (b, c) of the kernel's result sits at row-major position 2·b + c of the 4096 × 128 output array, which grid
  point t = b / 8192 wrote as entry (p, q) of its block, p·128 + q = 2·(b − 8192·t) + c: the kernel's row function of
  tile row b − 8192·t, that is of row b of the input, at channel c. The reference's result at (b, c) is the
  reference's row function of the same row. With real inputs and parameters the two row functions agree.
-/
import proofs.«117246_j71339406787195_2_alg».proof.Proof.KernelArray
import proofs.«117246_j71339406787195_2_alg».proof.Proof.KernelBlock
import proofs.«117246_j71339406787195_2_alg».proof.Proof.RefRow
import proofs.«117246_j71339406787195_2_alg».proof.Proof.Spec

noncomputable section

namespace Cert.KernelIdeal.Bridge

open Cert.KernelIdeal Cert.KernelIdeal.Gen Cert.KernelIdeal.Frame
open Idealize.ShloMosaic Idealize.ShloMosaic.TcCoe Idealize.ShloMosaic.ValueIdx Idealize.SL.Sem
open BinNet Cert.LibBatchNorm

variable (m : (ℓ : Loc nD τ sig) → Buf (Elt Ideal) ℓ)

/-- An entry of the block a grid point writes, when its eight input blocks are known entry by entry. -/
theorem entry_of_blocks (x0 : Vec Ideal S8192x126 .f32) (x1 : Vec Ideal S126x126 .f32) (x2 x3 x4 x5 x6 : Vec Ideal S1x126 .f32)
    (x7 : Vec Ideal S1x5 .f32) (p q : Fin 128)
    (a0 : Fin 8192 → Fin 126 → EReal) (a1 : Fin 126 → Fin 126 → EReal) (a2 a3 a4 a5 a6 : Fin 126 → EReal) (a7 : Fin 5 → EReal)
    (h0 : ∀ r k, x0 (ix2 r k) = a0 r k) (h1 : ∀ j k, x1 (ix2 j k) = a1 j k)
    (h2 : ∀ k, x2 (ix2 (0 : Fin 1) k) = a2 k) (h3 : ∀ k, x3 (ix2 (0 : Fin 1) k) = a3 k)
    (h4 : ∀ k, x4 (ix2 (0 : Fin 1) k) = a4 k) (h5 : ∀ k, x5 (ix2 (0 : Fin 1) k) = a5 k)
    (h6 : ∀ k, x6 (ix2 (0 : Fin 1) k) = a6 k) (h7 : ∀ a, x7 (ix2 (0 : Fin 1) a) = a7 a) :
    Frame.out0_8 (F := Ideal) x0 x1 x2 x3 x4 x5 x6 x7 (ix2 p q)
      = kerRowP (fun k => a0 (⟨(p.val * 128 + q.val) / 2, by have := p.isLt; have := q.isLt; omega⟩ : Fin 8192) k)
          (fun j k => a1 j k) (fun k => a2 k) (fun k => a3 k) (fun k => a4 k) (fun k => a5 k) (fun k => a6 k)
          (a7 0) (a7 1) (a7 2) (a7 3) (a7 4) (⟨(p.val * 128 + q.val) % 2, Nat.mod_lt _ (by decide)⟩ : Fin 2) := by
  rw [Block.out0_8_apply]
  simp only [h0, h1, h2, h3, h4, h5, h6, h7]

/-- Entry (b, ch) of the kernel's result is the kernel's row function of row b of the input. -/
theorem kernel_entry (c : Dev nD) (b : Fin 262144) (ch : Fin 2) :
    blkOut m c (ptOf (flatOf (ix2 b ch))) (inBlk (flatOf (ix2 b ch)))
      = kerRow (fun k => m ((c.tc : Thread nD τ).loc main_arg0) (ix4 b (0 : Fin 1) (0 : Fin 1) k))
          (fun j k => m ((c.tc : Thread nD τ).loc main_arg1) (ix4 j (0 : Fin 1) (0 : Fin 1) k))
          (fun k => m ((c.tc : Thread nD τ).loc main_arg2) (ix1 k)) (fun k => m ((c.tc : Thread nD τ).loc main_arg3) (ix1 k))
          (fun k => m ((c.tc : Thread nD τ).loc main_arg4) (ix1 k)) (fun k => m ((c.tc : Thread nD τ).loc main_arg5) (ix1 k))
          (fun c' k => m ((c.tc : Thread nD τ).loc main_arg6) (ix2 c' k)) (fun c' => m ((c.tc : Thread nD τ).loc main_arg7) (ix1 c'))
          (fun c' => m ((c.tc : Thread nD τ).loc main_arg8) (ix1 c')) (fun c' => m ((c.tc : Thread nD τ).loc main_arg9) (ix1 c')) ch := by
  have hb := b.isLt
  have hc := ch.isLt
  have hrow : ∀ r : Fin 8192, r.val = (((b.val * 2 + ch.val) / 128) % 128 * 128 + (b.val * 2 + ch.val) % 128) / 2 →
      (⟨(ptOf (flatOf (ix2 b ch))).val * 8192 + r.val, by have := pt_lt (ptOf (flatOf (ix2 b ch))); have := r.isLt; omega⟩ : Fin 262144) = b := by
    intro r hr
    refine Fin.ext ?_
    show (b.val * 2 + ch.val) / 128 / 128 * 8192 + r.val = b.val
    omega
  have hch : (⟨(((b.val * 2 + ch.val) / 128) % 128 * 128 + (b.val * 2 + ch.val) % 128) % 2, Nat.mod_lt _ (by decide)⟩ : Fin 2) = ch :=
    Fin.ext (by show (((b.val * 2 + ch.val) / 128) % 128 * 128 + (b.val * 2 + ch.val) % 128) % 2 = ch.val; omega)
  unfold blkOut
  refine (entry_of_blocks
    (iblk m c 0 (ptOf (flatOf (ix2 b ch)))) (iblk m c 1 (ptOf (flatOf (ix2 b ch)))) (iblk m c 2 (ptOf (flatOf (ix2 b ch))))
    (iblk m c 3 (ptOf (flatOf (ix2 b ch)))) (iblk m c 4 (ptOf (flatOf (ix2 b ch)))) (iblk m c 5 (ptOf (flatOf (ix2 b ch))))
    (iblk m c 6 (ptOf (flatOf (ix2 b ch)))) (iblk m c 7 (ptOf (flatOf (ix2 b ch))))
    (⟨((b.val * 2 + ch.val) / 128) % 128, Nat.mod_lt _ (by decide)⟩ : Fin 128)
    (⟨(b.val * 2 + ch.val) % 128, Nat.mod_lt _ (by decide)⟩ : Fin 128)
    (fun r k => m ((c.tc : Thread nD τ).loc main_arg0)
      (ix4 (⟨(ptOf (flatOf (ix2 b ch))).val * 8192 + r.val, by have := pt_lt (ptOf (flatOf (ix2 b ch))); have := r.isLt; omega⟩ : Fin 262144) (0 : Fin 1) (0 : Fin 1) k))
    (fun j k => m ((c.tc : Thread nD τ).loc main_arg1) (ix4 j (0 : Fin 1) (0 : Fin 1) k))
    (fun k => m ((c.tc : Thread nD τ).loc main_arg2) (ix1 k)) (fun k => m ((c.tc : Thread nD τ).loc main_arg3) (ix1 k))
    (fun k => m ((c.tc : Thread nD τ).loc main_arg4) (ix1 k)) (fun k => m ((c.tc : Thread nD τ).loc main_arg5) (ix1 k))
    (fun k => (Ideal.sign (m ((c.tc : Thread nD τ).loc main_arg6) (ix2 (0 : Fin 2) k)) - Ideal.sign (m ((c.tc : Thread nD τ).loc main_arg6) (ix2 (1 : Fin 2) k))) * cHalf)
    (fun a => V m c main_v35 (ix2 (0 : Fin 1) a))
    (fun r k => (iblk0_apply m c _ r k).trans (V_v0 m c _ k))
    (fun j k => (iblk1_apply m c _ j k).trans (V_v1 m c j k))
    (fun k => (iblk2_apply m c _ k).trans (V_v2 m c k)) (fun k => (iblk3_apply m c _ k).trans (V_v3 m c k))
    (fun k => (iblk4_apply m c _ k).trans (V_v4 m c k)) (fun k => (iblk5_apply m c _ k).trans (V_v5 m c k))
    (fun k => (iblk6_apply m c _ k).trans (V_v14 m c k))
    (fun a => iblk7_apply m c _ a)).trans ?_
  rw [V_v35_0, V_v35_1, V_v35_2, V_v35_3, V_v35_4, hch]
  unfold kerRow
  exact congrArg (fun x => kerRowP x _ _ _ _ _ _ _ _ _ _ _ ch) (funext fun k => by rw [hrow _ rfl])

/-- With real inputs and parameters, entry (b, ch) of the kernel's result is entry (b, ch) of the reference's. -/
theorem result_eq (c : Dev nD)
    (h0 : ∀ i, IsReal (m ((c.tc : Thread nD τ).loc main_arg0) i)) (h1 : ∀ i, IsReal (m ((c.tc : Thread nD τ).loc main_arg1) i))
    (h6 : ∀ i, IsReal (m ((c.tc : Thread nD τ).loc main_arg6) i)) (h7 : ∀ i, IsReal (m ((c.tc : Thread nD τ).loc main_arg7) i))
    (h8 : ∀ i, IsReal (m ((c.tc : Thread nD τ).loc main_arg8) i)) (h9 : ∀ i, IsReal (m ((c.tc : Thread nD τ).loc main_arg9) i))
    (i : S262144x2.Idx) :
    Cert.ReferenceIdeal.Read.val_main_v92 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) i
      = blkOut m c (ptOf (flatOf i)) (inBlk (flatOf i)) := by
  obtain ⟨b, ch, rfl⟩ : ∃ (b : Fin 262144) (ch : Fin 2), i = ix2 b ch := ⟨i 0, i 1, eq_ix2 i⟩
  rw [kernel_entry, Cert.ReferenceIdeal.Row.v92_apply]
  exact (kerRow_eq_refRow _ _ _ _ _ _ _ _ _ _ (fun k => h0 _) (fun j k => h1 _) (fun c' k => h6 _) (fun c' => h7 _)
    (fun c' => h8 _) (fun c' => h9 _) ch).symm

end Cert.KernelIdeal.Bridge

end
-- ==== Proof.Finite.lean ====
/-
  What the precondition gives: every entry of the input, of the two weights, of the bias and of the last scale and
  shift is a real number.

  The precondition is the conjunction, over the ten arguments, of "every entry has absolute value below +∞". On the
  extended reals |x| = max x (-x) is +∞ exactly at the two infinities, so an entry that passes the test is real.
-/
import proofs.«117246_j71339406787195_2_alg».proof.Pre_finite_inputs
import proofs.«117246_j71339406787195_2_alg».proof.Proof.Gen.Pre_finite_inputs
import proofs.«117246_j71339406787195_2_alg».proof.Proof.LibBatchNorm
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

namespace Cert.Pre_finite_inputs.Finite

open Cert.Pre_finite_inputs Idealize.ShloMosaic Cert.LibBatchNorm

instance : Subsingleton S_.Idx := ⟨fun a b => funext fun d => d.elim0⟩

/-- An extended real whose absolute value is below +∞ is a real number. -/
theorem real_of_lt_inf (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => exfalso; simp [Ideal.cmp] at h
  | top => exfalso; simp [Ideal.cmp] at h
  | coe r => exact ⟨r, rfl⟩

theorem elt_real {s : Shape} (A : FVec Ideal s .f32) (hb : S_.BroadcastsInDim s (![] : Fin 0 → Fin s.rank)) (i : s.Idx)
    (h : cmpf .olt (Host.absf A) (broadcastInDim s ![] hb (constant S_ .f32 0x7F800000#32)) i = 1#1) : IsReal (A i) := by
  refine real_of_lt_inf (A i) ?_
  have e : broadcastInDim s ![] hb (constant (F := Ideal) S_ .f32 0x7F800000#32) i = Ideal.ofBits .f32 0x7F800000#32 :=
    broadcastInDim_apply _ hb _ i ValueIdx.ix0 (fun a => a.elim0)
  rw [← e]
  exact h

/-- Under the precondition the entries of the input, the two weights, the bias and the last scale and shift are real. -/
theorem reals_of_pre (A0 : FVec Ideal S262144x1x1x126 .f32) (A1 : FVec Ideal S126x1x1x126 .f32) (A2 A3 A4 A5 : FVec Ideal S126 .f32)
    (A6 : FVec Ideal S2x126 .f32) (A7 A8 A9 : FVec Ideal S2 .f32)
    (h : fn (F := Ideal) A0 A1 A2 A3 A4 A5 A6 A7 A8 A9 = fun _ => 1#1) :
    (∀ i, IsReal (A0 i)) ∧ (∀ i, IsReal (A1 i)) ∧ (∀ i, IsReal (A6 i)) ∧ (∀ i, IsReal (A7 i)) ∧ (∀ i, IsReal (A8 i))
      ∧ (∀ i, IsReal (A9 i)) := by
  have h0 := congrFun h ValueIdx.ix0
  simp only [fn, fn_part1, fn_part2, andi, IntOp.andi_eq_one] at h0
  obtain ⟨⟨⟨⟨⟨⟨⟨⟨⟨p0, p1⟩, p2⟩, p3⟩, p4⟩, p5⟩, p6⟩, p7⟩, p8⟩, p9⟩ := h0
  exact ⟨fun i => elt_real A0 _ i (Host.reduce_andi_all _ _ _ _ _ p0 i),
    fun i => elt_real A1 _ i (Host.reduce_andi_all _ _ _ _ _ p1 i),
    fun i => elt_real A6 _ i (Host.reduce_andi_all _ _ _ _ _ p6 i),
    fun i => elt_real A7 _ i (Host.reduce_andi_all _ _ _ _ _ p7 i),
    fun i => elt_real A8 _ i (Host.reduce_andi_all _ _ _ _ _ p8 i),
    fun i => elt_real A9 _ i (Host.reduce_andi_all _ _ _ _ _ p9 i)⟩

end Cert.Pre_finite_inputs.Finite

end
-- ==== Proof.lean ====
/-
  The certificate: the binarized network computed by one pipelined kernel over tiles of 8192 rows, against the plain
  host program.

  Frames. Each of the three programs runs to the end without a fault and leaves its ten argument arrays as launched:
  for the two kernel programs because the region only stages blocks of arrays the host operations wrote and writes
  its own output array, and no host operation writes an argument; for the reference because it is a straight line of
  host operations.
  The idealization. The kernel reads the sign bit of three arrays; read as exact numbers each site is the comparison
  with zero, which is the rule's statement at that site's shape.
  The values. Under the precondition every entry of the input, the weights, the bias and the last scale and shift is a
  real number. Then entry (b, c) of both results is one function of row b of the input: the kernel's analytic
  two-channel normalization (half difference d, then d·rsqrt(d² + ε)) is the reference's literal one, and the
  reference's x + (sign x − x) is sign x.
-/
import proofs.«117246_j71339406787195_2_alg».proof.Defs
import proofs.«117246_j71339406787195_2_alg».proof.Proof.Gen.Kernel
import proofs.«117246_j71339406787195_2_alg».proof.Proof.Gen.KernelIdeal
import proofs.«117246_j71339406787195_2_alg».proof.Proof.Gen.ReferenceIdeal
import proofs.«117246_j71339406787195_2_alg».proof.Proof.Gen.Pre_finite_inputs
import proofs.«117246_j71339406787195_2_alg».proof.Proof.Gen.ReferenceIdeal.Run
import proofs.«117246_j71339406787195_2_alg».proof.Proof.Gen.ReferenceIdeal.Read
import proofs.«117246_j71339406787195_2_alg».proof.Proof.FrameBits
import proofs.«117246_j71339406787195_2_alg».proof.Proof.FrameIdeal
import proofs.«117246_j71339406787195_2_alg».proof.Proof.KernelArray
import proofs.«117246_j71339406787195_2_alg».proof.Proof.Bridge
import proofs.«117246_j71339406787195_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

/-- The three sites where the kernel reads a sign bit: the input tile, the weight, and the clipped trunk. -/
theorem preserves : Cert.preserves_Kernel_KernelIdeal :=
  ⟨IdealRules.sign_bit.statement Cert.KernelIdeal.S8192x126 .f32,
   IdealRules.sign_bit.statement Cert.KernelIdeal.S126x126 .f32,
   IdealRules.sign_bit.statement Cert.KernelIdeal.S8192x126 .f32⟩

/-- Both programs end with the same result array: entry by entry, the row function of the input's row. -/
theorem algebraic : Cert.algebraic_KernelIdeal_ReferenceIdeal := by
  intro m ρ m' ρ' hpre hagree
  refine ⟨fun c i => Cert.KernelIdeal.Frame.blkOut m c
      (Cert.KernelIdeal.Frame.ptOf (Cert.KernelIdeal.Frame.flatOf i)) (Cert.KernelIdeal.Frame.inBlk (Cert.KernelIdeal.Frame.flatOf i)),
    Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h6, h7, h8, h9⟩ := Cert.Pre_finite_inputs.Finite.reals_of_pre _ _ _ _ _ _ _ _ _ _ (hpre c)
  rw [Cert.ReferenceIdeal.Read.val_main_v92_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact funext fun i => Cert.KernelIdeal.Bridge.result_eq m c h0 h1 h6 h7 h8 h9 i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
